-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x512 : Shape := ⟨3, ![4, 2048, 512]⟩
abbrev S128x512 : Shape := ⟨2, ![128, 512]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S128x512 : S_.BroadcastsInDim S128x512 (![] : Fin 0 → Fin S128x512.rank)
  reducesTo_S128x512_S_d0_1 : S128x512.ReducesTo [0, 1] S_

variable [Facts]

def fn {F : FTy → Type} [FloatOps F] (main_arg0 : FVec F S4x2048x512 .f32) (main_arg1 : FVec F S128x512 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  main_v8
-- ==== Kernel.lean ====
abbrev S4x2048x512 : Shape := ⟨3, ![4, 2048, 512]⟩
abbrev S128x512 : Shape := ⟨2, ![128, 512]⟩
abbrev S4x2048x128 : Shape := ⟨3, ![4, 2048, 128]⟩
abbrev S4x2048x2048 : Shape := ⟨3, ![4, 2048, 2048]⟩
abbrev S1x2048x512 : Shape := ⟨3, ![1, 2048, 512]⟩
abbrev S1x2048x128 : Shape := ⟨3, ![1, 2048, 128]⟩
abbrev S1x1024x1024 : Shape := ⟨3, ![1, 1024, 1024]⟩
abbrev S2048x128 : Shape := ⟨2, ![2048, 128]⟩
abbrev S2048x1 : Shape := ⟨2, ![2048, 1]⟩
abbrev S1x2048 : Shape := ⟨2, ![1, 2048]⟩
abbrev S2048x512 : Shape := ⟨2, ![2048, 512]⟩
abbrev S2048 : Shape := ⟨1, ![2048]⟩
abbrev S1024x128 : Shape := ⟨2, ![1024, 128]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 4
  | .vmem => 10
  | .smem => 0
  | _ => 0

abbrev bufTy : (tb : Table) → Fin (tcTables nBuf tb) → BufTy
  | .hbm, ⟨0, _⟩ => ⟨S4x2048x512, .f32⟩
  | .hbm, ⟨1, _⟩ => ⟨S128x512, .f32⟩
  | .hbm, ⟨2, _⟩ => ⟨S4x2048x128, .f32⟩
  | .hbm, ⟨3, _⟩ => ⟨S4x2048x2048, .f32⟩
  | .local _ .vmem, ⟨0, _⟩ => ⟨S1x2048x512, .f32⟩
  | .local _ .vmem, ⟨1, _⟩ => ⟨S1x2048x512, .f32⟩
  | .local _ .vmem, ⟨2, _⟩ => ⟨S128x512, .f32⟩
  | .local _ .vmem, ⟨3, _⟩ => ⟨S1x2048x128, .f32⟩
  | .local _ .vmem, ⟨4, _⟩ => ⟨S1x2048x128, .f32⟩
  | .local _ .vmem, ⟨5, _⟩ => ⟨S1x1024x1024, .f32⟩
  | .local _ .vmem, ⟨6, _⟩ => ⟨S1x1024x1024, .f32⟩
  | .local _ .vmem, ⟨7, _⟩ => ⟨S2048x128, .f32⟩
  | .local _ .vmem, ⟨8, _⟩ => ⟨S2048x1, .f32⟩
  | .local _ .vmem, ⟨9, _⟩ => ⟨S1x2048, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 2], ![false, false, false]⟩

def k0_off1 (i : grid0.Coords) : Fin 2 → Nat :=
  let arg1 : BitVec 32 := BitVec.ofNat 32 (i 1).val
  let c1024_i32 : BitVec 32 := 1024#32
  let v5 : BitVec 32 := Scalar.muli arg1 c1024_i32
  let v6 : Index := Scalar.indexCast v5
  let c0 : Index := 0#32
  ![v6.toNat, 0]
def k0_off2 (i : grid0.Coords) : Fin 2 → Nat :=
  let arg2 : BitVec 32 := BitVec.ofNat 32 (i 2).val
  let c1024_i32_2 : BitVec 32 := 1024#32
  let v8 : BitVec 32 := Scalar.muli arg2 c1024_i32_2
  let v9 : Index := Scalar.indexCast v8
  let c0_3 : Index := 0#32
  ![v9.toNat, 0]
def k0_off3 (i : grid0.Coords) : Fin 2 → Nat :=
  let arg1 : BitVec 32 := BitVec.ofNat 32 (i 1).val
  let c1024_i32_4 : BitVec 32 := 1024#32
  let v11 : BitVec 32 := Scalar.muli arg1 c1024_i32_4
  let v12 : Index := Scalar.indexCast v11
  let c0_5 : Index := 0#32
  ![v12.toNat, 0]
def k0_off4 (i : grid0.Coords) : Fin 2 → Nat :=
  let c0_7 : Index := 0#32
  let arg2 : BitVec 32 := BitVec.ofNat 32 (i 2).val
  let c1024_i32_6 : BitVec 32 := 1024#32
  let v14 : BitVec 32 := Scalar.muli arg2 c1024_i32_6
  let v15 : Index := Scalar.indexCast v14
  ![0, v15.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S128x512_S128x512_0_0 : ∀ a, (![0, 0] : Fin 2 → Nat) a + S128x512.size a ≤ S128x512.size a
  h_S128x512 : 0 < S128x512.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  reduces_S2048x128_S2048 : S2048x128.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  transposes_S2048x1_p1_0_S1x2048 : S2048x1.Transposes [1, 0] S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  h_S1024x128 : 0 < S1024x128.numel
  h_S1024x1 : 0 < S1024x1.numel
  h_S1x1024 : 0 < S1x1024.numel
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S2048x512_S128x512_S2048x128_1_1_0_0_n_n_wf : DotDims.WF S2048x512 S128x512 S2048x128 [1] [1] [0] [0] [] []
  dot_S1024x128_S1024x128_S1024x1024_1_1_0_0_n_n_wf : DotDims.WF S1024x128 S1024x128 S1024x1024 [1] [1] [0] [0] [] []
  hrank0 : 0 < grid0.rank
  k0_off1_inb : ∀ i : grid0.Coords, ∀ a, (k0_off1 i) a + S1024x128.size a ≤ S2048x128.size a
  k0_off2_inb : ∀ i : grid0.Coords, ∀ a, (k0_off2 i) a + S1024x128.size a ≤ S2048x128.size a
  k0_off3_inb : ∀ i : grid0.Coords, ∀ a, (k0_off3 i) a + S1024x1.size a ≤ S2048x1.size a
  k0_off4_inb : ∀ i : grid0.Coords, ∀ a, (k0_off4 i) a + S1x1024.size a ≤ S1x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S4x2048x512.size a
  hwx0_0 : ∀ i : grid0.Coords, EltTy.bits .f32 = 32 ∨ (Rect.block (s := S4x2048x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S4x2048x128.size a
  hwx0_2 : ∀ i : grid0.Coords, EltTy.bits .f32 = 32 ∨ (Rect.block (s := S4x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S4x2048x2048.size a
  hwx0_3 : ∀ i : grid0.Coords, EltTy.bits .f32 = 32 ∨ (Rect.block (s := S4x2048x2048) S1x1024x1024.size (cc0_transform_3 i) (hinb0_3 i)).WholeWords (EltTy.packing .f32)

variable [Facts₀]

def dot_S2048x512_S128x512_S2048x128_1_1_0_0_n_n : DotDims S2048x512 S128x512 S2048x128 where
  lhsContracting := [1]
  rhsContracting := [1]
  lhsNonContracting := [0]
  rhsNonContracting := [0]
  lhsBatch := []
  rhsBatch := []
  wf := dot_S2048x512_S128x512_S2048x128_1_1_0_0_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x2048x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond1 i == 1#1) | 3 => fun _ => false | ⟨_ + 4, h⟩ => absurd h (Nat.not_lt.2 (Nat.le_add_left _ _))

class Facts : Prop extends Facts₀ where

variable [Facts]
-- ==== ReferenceIdeal.lean ====
abbrev S4x2048x512 : Shape := ⟨3, ![4, 2048, 512]⟩
abbrev S128x512 : Shape := ⟨2, ![128, 512]⟩
abbrev S4x2048x128 : Shape := ⟨3, ![4, 2048, 128]⟩
abbrev S_ : Shape := ⟨0, ![]⟩
abbrev S4x2048 : Shape := ⟨2, ![4, 2048]⟩
abbrev S4x2048x2048 : Shape := ⟨3, ![4, 2048, 2048]⟩
abbrev S4x2048x1 : Shape := ⟨3, ![4, 2048, 1]⟩
abbrev S4x1x2048 : Shape := ⟨3, ![4, 1, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S128x512, .f32⟩
  | .hbm, ⟨2, _⟩ => ⟨S4x2048x128, .f32⟩
  | .hbm, ⟨3, _⟩ => ⟨S4x2048x128, .f32⟩
  | .hbm, ⟨4, _⟩ => ⟨S_, .f32⟩
  | .hbm, ⟨5, _⟩ => ⟨S4x2048, .f32⟩
  | .hbm, ⟨6, _⟩ => ⟨S4x2048x2048, .f32⟩
  | .hbm, ⟨7, _⟩ => ⟨S4x2048x1, .f32⟩
  | .hbm, ⟨8, _⟩ => ⟨S4x1x2048, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S_, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  reducesTo_S4x2048x128_S4x2048_d2 : S4x2048x128.ReducesTo [2] S4x2048
  h_S_ : 0 < S_.numel
  bcast_S4x2048_S4x2048x1_0_1 : S4x2048.BroadcastsInDim S4x2048x1 (![0, 1] : Fin 2 → Fin S4x2048x1.rank)
  bcast_S4x2048_S4x1x2048_0_2 : S4x2048.BroadcastsInDim S4x1x2048 (![0, 2] : Fin 2 → Fin S4x1x2048.rank)
  bcast_S4x2048x1_S4x2048x2048_0_1_2 : S4x2048x1.BroadcastsInDim S4x2048x2048 (![0, 1, 2] : Fin 3 → Fin S4x2048x2048.rank)
  bcast_S4x1x2048_S4x2048x2048_0_1_2 : S4x1x2048.BroadcastsInDim S4x2048x2048 (![0, 1, 2] : Fin 3 → Fin S4x2048x2048.rank)
  bcast_S_S4x2048x2048 : S_.BroadcastsInDim S4x2048x2048 (![] : Fin 0 → Fin S4x2048x2048.rank)
  dot_S4x2048x512_S128x512_S4x2048x128_2_1_01_0_n_n_wf : DotDims.WF S4x2048x512 S128x512 S4x2048x128 [2] [1] [0, 1] [0] [] []
  dot_S4x2048x128_S4x2048x128_S4x2048x2048_2_2_1_1_0_0_wf : DotDims.WF S4x2048x128 S4x2048x128 S4x2048x2048 [2] [2] [1] [1] [0] [0]

variable [Facts₀]

def dot_S4x2048x512_S128x512_S4x2048x128_2_1_01_0_n_n : DotDims S4x2048x512 S128x512 S4x2048x128 where
  lhsContracting := [2]
  rhsContracting := [1]
  lhsNonContracting := [0, 1]
  rhsNonContracting := [0]
  lhsBatch := []
  rhsBatch := []
  wf := dot_S4x2048x512_S128x512_S4x2048x128_2_1_01_0_n_n_wf
def dot_S4x2048x128_S4x2048x128_S4x2048x2048_2_2_1_1_0_0 : DotDims S4x2048x128 S4x2048x128 S4x2048x2048 where
  lhsContracting := [2]
  rhsContracting := [2]
  lhsNonContracting := [1]
  rhsNonContracting := [1]
  lhsBatch := [0]
  rhsBatch := [0]
  wf := dot_S4x2048x128_S4x2048x128_S4x2048x2048_2_2_1_1_0_0_wf

class Facts : Prop extends Facts₀ where

variable [Facts]
-- ==== Proof.Spec.lean ====
/-
  The two results as functions of the argument arrays, index by index, on the extended reals.

  With `A : [4, 2048, 512]` the sentence embeddings and `W : [128, 512]` the projection's weight:
    proj  b l d = ∑ e, A[b, l, e] · W[d, e]                    (the linear map, no bias)
    sqn   b l   = ∑ d, proj b l d · proj b l d                 (squared norm of a projected row)
    gram  b i j = ∑ d, proj b i d · proj b j d                 (inner product of two projected rows)
    dist  b i j = (sqn b i + sqn b j) − 2 · gram b i j         (all-pairs squared distance)
  The first result is `proj`, the second `dist`. The sums are finite sums in the extended reals; no law
  beyond reading each side term by term is needed to identify the two programs with these functions, so
  no finiteness of the inputs is used.
-/
import Idealize.ShloMosaic.PureOps.Ideal
import Idealize.ShloMosaic.Lib.ValueIdx

noncomputable section

namespace Cert.Spec

open Idealize.ShloMosaic Idealize.ShloMosaic.ValueIdx

/-- The shapes of the two arguments and the two results. -/
abbrev SEmb : Shape := ⟨3, ![4, 2048, 512]⟩
abbrev SWgt : Shape := ⟨2, ![128, 512]⟩
abbrev SProj : Shape := ⟨3, ![4, 2048, 128]⟩
abbrev SDist : Shape := ⟨3, ![4, 2048, 2048]⟩

/-- The projection of row `l` of batch `b` onto output feature `d`. -/
def proj (A : SEmb.Idx → EReal) (W : SWgt.Idx → EReal) (b : Fin 4) (l : Fin 2048) (d : Fin 128) : EReal :=
  ∑ e : Fin 512, A (ix3 b l e) * W (ix2 d e)

/-- The squared norm of a projected row. -/
def sqn (A : SEmb.Idx → EReal) (W : SWgt.Idx → EReal) (b : Fin 4) (l : Fin 2048) : EReal :=
  ∑ d : Fin 128, proj A W b l d * proj A W b l d

/-- The inner product of two projected rows of one batch. -/
def gram (A : SEmb.Idx → EReal) (W : SWgt.Idx → EReal) (b : Fin 4) (i j : Fin 2048) : EReal :=
  ∑ d : Fin 128, proj A W b i d * proj A W b j d

/-- The factor two, as both programs spell it. -/
def two : EReal := Ideal.ofBits .f32 0x40000000#32

/-- The first result: the projected embeddings. -/
def projArr (A : SEmb.Idx → EReal) (W : SWgt.Idx → EReal) : SProj.Idx → EReal :=
  fun i => proj A W (i 0) (i 1) (i 2)

/-- The second result: the all-pairs squared distances. -/
def distArr (A : SEmb.Idx → EReal) (W : SWgt.Idx → EReal) : SDist.Idx → EReal :=
  fun i => (sqn A W (i 0) (i 1) + sqn A W (i 0) (i 2)) - two * gram A W (i 0) (i 1) (i 2)

end Cert.Spec

end
-- ==== Proof.RefSpec.lean ====
/-
  The reference program computes the specification's two functions.

  Its first result is the product of the embeddings with the transposed weight, read at an index: the sum over the
  contracted axis that `Spec.proj` spells. Its second result is assembled from three intermediate arrays: the row sums of
  the squared projections (`Spec.sqn`), read once along the rows and once along the columns of the result, and the batched
  product of the projections with themselves (`Spec.gram`), scaled by the constant two and subtracted. Each step is read at
  an index; the sums that appear are the specification's sums term by term, so no law of arithmetic is used beyond
  `0 + s = s` for the sum's initial value.
-/
import proofs.«140037_j16681652977790_2_alg».proof.Proof.Gen.ReferenceIdeal.Read
import proofs.«140037_j16681652977790_2_alg».proof.Proof.Spec

noncomputable section

namespace Cert.RefSpec

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 : (⟨S4x2048x512, .f32⟩ : BufTy).Contents (Elt Ideal)) (x1 : (⟨S128x512, .f32⟩ : BufTy).Contents (Elt Ideal))

/-- The first stage at an index is the projection of that row onto that feature. -/
theorem proj_at (j : S4x2048x128.Idx) :
    val_main_v0 (F := Ideal) x0 x1 j = Spec.proj x0 x1 (j 0) (j 1) (j 2) := by
  have el : ∀ k : Fin 512, lidx_main_v0 j k = ix3 (j 0) (j 1) k := fun k => funext fun a => Fin.ext (by
    match a with | ⟨0, _⟩ => rfl | ⟨1, _⟩ => rfl | ⟨2, _⟩ => rfl)
  have er : ∀ k : Fin 512, ridx_main_v0 j k = ix2 (j 2) k := fun k => funext fun a => Fin.ext (by
    match a with | ⟨0, _⟩ => rfl | ⟨1, _⟩ => rfl)
  rw [val_main_v0_apply]
  simp only [el, er]
  rfl

/-- The reference's first result is the specification's projection array. -/
theorem ref_proj : val_main_v0 (F := Ideal) x0 x1 = Spec.projArr x0 x1 := by
  funext i
  exact proj_at x0 x1 i

/-- The row sums of the squared projections at an index are the squared norm of that projected row. -/
theorem sqn_at (j : S4x2048.Idx) :
    val_main_v2 (F := Ideal) x0 x1 j = Spec.sqn x0 x1 (j 0) (j 1) := by
  rw [val_main_v2_apply, val_main_cst_apply]
  simp only [val_main_v1_apply, proj_at, Ideal.ofBits_def, Ideal.ofBits_zero_f32, zero_add, Ideal.mulf_def]
  rfl

/-- The batched product of the projections with themselves at an index is the inner product of the two rows. -/
theorem gram_at (j : S4x2048x2048.Idx) :
    val_main_v3 (F := Ideal) x0 x1 j = Spec.gram x0 x1 (j 0) (j 1) (j 2) := by
  rw [val_main_v3_apply]
  simp only [proj_at]
  rfl

/-- The reference's second result is the specification's distance array. -/
theorem ref_dist : val_main_v11 (F := Ideal) x0 x1 = Spec.distArr x0 x1 := by
  funext i
  rw [val_main_v11_apply, val_main_v8_apply, val_main_v6_apply, val_main_v4_apply, val_main_v7_apply, val_main_v5_apply,
    val_main_v10_apply, val_main_v9_apply, val_main_cst_0_apply]
  simp only [sqn_at, gram_at, Ideal.ofBits_def, Ideal.addf_def, Ideal.subf_def, Ideal.mulf_def]
  rfl

end Cert.RefSpec

end
-- ==== Proof.Payload.lean ====
/-
  The kernel body's stored values, read at an index, on the extended reals.

  Each value the kernel body stores is a function of the vectors it has loaded. Read at one index, with
  every operation taken as the textbook one on the extended reals:
    the projection            P[l, d] = ∑ e, A[0, l, e] · W[d, e]      (a product against the transposed weight),
    its two stored copies     the same number, at (l, d) and at (0, l, d),
    the row squared norms     N[l] = ∑ d, P[l, d] · P[l, d],  stored as a column (l, 0) and as a row (0, l),
    one tile of distances     (n_p + m_q) − 2 · ∑ d, X[p, d] · Y[q, d]   at (0, p, q),
  where X, Y are two blocks of rows of the projection and n, m the matching blocks of the column and the row of norms.
  The right-hand sides are arranged as the specification's `proj`, `sqn`, `gram` and `two` are, term by term.
-/
import proofs.«140037_j16681652977790_2_alg».proof.Proof.Gen.KernelIdeal.Skeleton
import proofs.«140037_j16681652977790_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Payload

open Cert.KernelIdeal Cert.KernelIdeal.Gen Idealize.ShloMosaic Idealize.ShloMosaic.ValueIdx Idealize.SL.Sem

/-! ## The two products' operand indices

Both products contract the second axis of each operand and have no batch axis: the output index (r, c) and the
contraction coordinate k name the left operand at (r, k) and the right operand at (c, k). -/

/-- The left operand's row is the output's row (the projection's product). -/
theorem projDot_lhs_0 (i : S2048x128.Idx) (q : dot_S2048x512_S128x512_S2048x128_1_1_0_0_n_n.contr.Idx) :
    (dot_S2048x512_S128x512_S2048x128_1_1_0_0_n_n.lhsIdx i q 0).val = (i 0).val := by
  unfold DotDims.lhsIdx
  rw [dif_neg (show ¬(0 : Fin S2048x512.rank) ∈ dot_S2048x512_S128x512_S2048x128_1_1_0_0_n_n.lhsBatch by decide), dif_pos (show (0 : Fin S2048x512.rank) ∈ dot_S2048x512_S128x512_S2048x128_1_1_0_0_n_n.lhsNonContracting by decide)]
  rfl
/-- The left operand's column is the contraction coordinate. -/
theorem projDot_lhs_1 (i : S2048x128.Idx) (q : dot_S2048x512_S128x512_S2048x128_1_1_0_0_n_n.contr.Idx) :
    (dot_S2048x512_S128x512_S2048x128_1_1_0_0_n_n.lhsIdx i q 1).val = (q ⟨0, by decide⟩).val :=
  dot_S2048x512_S128x512_S2048x128_1_1_0_0_n_n.lhsIdx_val_of_single rfl i q
/-- The right operand's row is the output's column. -/
theorem projDot_rhs_0 (i : S2048x128.Idx) (q : dot_S2048x512_S128x512_S2048x128_1_1_0_0_n_n.contr.Idx) :
    (dot_S2048x512_S128x512_S2048x128_1_1_0_0_n_n.rhsIdx i q 0).val = (i 1).val := by
  unfold DotDims.rhsIdx
  rw [dif_neg (show ¬(0 : Fin S128x512.rank) ∈ dot_S2048x512_S128x512_S2048x128_1_1_0_0_n_n.rhsBatch by decide), dif_pos (show (0 : Fin S128x512.rank) ∈ dot_S2048x512_S128x512_S2048x128_1_1_0_0_n_n.rhsNonContracting by decide)]
  rfl
/-- The right operand's column is the contraction coordinate. -/
theorem projDot_rhs_1 (i : S2048x128.Idx) (q : dot_S2048x512_S128x512_S2048x128_1_1_0_0_n_n.contr.Idx) :
    (dot_S2048x512_S128x512_S2048x128_1_1_0_0_n_n.rhsIdx i q 1).val = (q ⟨0, by decide⟩).val :=
  dot_S2048x512_S128x512_S2048x128_1_1_0_0_n_n.rhsIdx_val_of_single rfl i q

/-- A product of a [2048, 512] vector against a [128, 512] one into the zero accumulator, at (l, d): the sum over
    the shared axis of the two rows' products. -/
theorem projDot_apply (a : FVec Ideal S2048x512 .f32) (b : FVec Ideal S128x512 .f32) (l : Fin 2048) (d : Fin 128) :
    matmul dot_S2048x512_S128x512_S2048x128_1_1_0_0_n_n (some .fp32) a b (constant (F := Ideal) S2048x128 .f32 0x00000000#32) (ix2 l d)
      = ∑ e : Fin 512, a (ix2 l e) * b (ix2 d e) := by
  refine (Ideal.matmul_constant_zero_apply dot_S2048x512_S128x512_S2048x128_1_1_0_0_n_n (some .fp32) a b (ix2 l d)).trans ?_
  rw [← Equiv.sum_comp (contrEquiv1 dot_S2048x512_S128x512_S2048x128_1_1_0_0_n_n 512 rfl rfl).symm]
  refine Finset.sum_congr rfl fun k _ => ?_
  have hk := contrEquiv1_symm_val dot_S2048x512_S128x512_S2048x128_1_1_0_0_n_n 512 rfl rfl k
  have el : dot_S2048x512_S128x512_S2048x128_1_1_0_0_n_n.lhsIdx (ix2 l d) ((contrEquiv1 dot_S2048x512_S128x512_S2048x128_1_1_0_0_n_n 512 rfl rfl).symm k) = ix2 l k := funext fun ax => Fin.ext (by
    match ax with
    | ⟨0, _⟩ => exact projDot_lhs_0 _ _
    | ⟨1, _⟩ => exact (projDot_lhs_1 _ _).trans hk)
  have er : dot_S2048x512_S128x512_S2048x128_1_1_0_0_n_n.rhsIdx (ix2 l d) ((contrEquiv1 dot_S2048x512_S128x512_S2048x128_1_1_0_0_n_n 512 rfl rfl).symm k) = ix2 d k := funext fun ax => Fin.ext (by
    match ax with
    | ⟨0, _⟩ => exact projDot_rhs_0 _ _
    | ⟨1, _⟩ => exact (projDot_rhs_1 _ _).trans hk)
  rw [el, er]

/-! ## The projection and its two stored copies -/

/-- The projection at (l, d). -/
theorem pay1_apply (x0 : Vec Ideal S1x2048x512 .f32) (x1 : Vec Ideal S128x512 .f32) (l : Fin 2048) (d : Fin 128) :
    k0_pay1 (F := Ideal) x0 x1 (ix2 l d) = ∑ e : Fin 512, x0 (ix3 (0 : Fin 1) l e) * x1 (ix2 d e) := by
  unfold k0_pay1
  refine (projDot_apply _ x1 l d).trans ?_
  refine Finset.sum_congr rfl fun e _ => ?_
  exact congrArg (· * x1 (ix2 d e)) (shapeCast_1ab_ab_apply x0 shapeCasts_S1x2048x512_S2048x512 l e)

/-- The scratch copy of the projection at (l, d): the same number. -/
theorem pay2_apply (x0 : Vec Ideal S1x2048x512 .f32) (x1 : Vec Ideal S128x512 .f32) (l : Fin 2048) (d : Fin 128) :
    k0_pay2 (F := Ideal) x0 x1 (ix2 l d) = ∑ e : Fin 512, x0 (ix3 (0 : Fin 1) l e) * x1 (ix2 d e) := by
  unfold k0_pay2
  exact (congrFun (shapeCast_self (k0_pay1 (F := Ideal) x0 x1) shapeCasts_S2048x128_S2048x128) (ix2 l d)).trans (pay1_apply x0 x1 l d)

/-- The output block's copy of the projection at (0, l, d): the same number. -/
theorem pay3_apply (x0 : Vec Ideal S1x2048x512 .f32) (x1 : Vec Ideal S128x512 .f32) (l : Fin 2048) (d : Fin 128) :
    k0_pay3 (F := Ideal) x0 x1 (ix3 (0 : Fin 1) l d) = ∑ e : Fin 512, x0 (ix3 (0 : Fin 1) l e) * x1 (ix2 d e) := by
  unfold k0_pay3
  exact (shapeCast_ab_1ab_apply (k0_pay1 (F := Ideal) x0 x1) shapeCasts_S2048x128_S1x2048x128 (0 : Fin 1) l d).trans (pay1_apply x0 x1 l d)

/-! ## The row squared norms, as a column and as a row -/

/-- A vector of length `a` viewed as a column `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the lanes of a [2048, 128] vector, at row l: the sum of the row's 128 entries. -/
theorem laneSum_apply (v : FVec Ideal S2048x128 .f32) (hφ : FKind.Formats .f32)
    (hacc : (0x00000000#32 : BitVec 32) = FKind.add.neutral .f32 hφ) (l : Fin 2048) :
    multiReduction (F := Ideal) .add [1] S2048 v 0x00000000#32 reduces_S2048x128_S2048 hφ hacc (ix1 l) = ∑ d : Fin 128, v (ix2 l d) := by
  refine (Ideal.multiReduction_add_single v 0x00000000#32 reduces_S2048x128_S2048 hφ hacc (ix1 l)).trans ?_
  refine Finset.sum_congr rfl fun d _ => ?_
  exact congrArg v (funext fun ax => Fin.ext (by match ax with | ⟨0, _⟩ => rfl | ⟨1, _⟩ => rfl))

/-- The column of squared norms at (l, 0): the sum over d of the projection's square. -/
theorem pay4_apply (x0 : Vec Ideal S1x2048x512 .f32) (x1 : Vec Ideal S128x512 .f32) (l : Fin 2048) :
    k0_pay4 (F := Ideal) x0 x1 (ix2 l (0 : Fin 1))
      = ∑ d : Fin 128, k0_pay1 (F := Ideal) x0 x1 (ix2 l d) * k0_pay1 (F := Ideal) x0 x1 (ix2 l d) := by
  unfold k0_pay4
  refine (shapeCast_a_a1_apply _ shapeCasts_S2048_S2048x1 l (0 : Fin 1)).trans ?_
  exact laneSum_apply (mulf (k0_pay1 (F := Ideal) x0 x1) (k0_pay1 (F := Ideal) x0 x1)) _ _ l

/-- The stored column of squared norms at (l, 0). -/
theorem pay5_apply (x0 : Vec Ideal S1x2048x512 .f32) (x1 : Vec Ideal S128x512 .f32) (l : Fin 2048) :
    k0_pay5 (F := Ideal) x0 x1 (ix2 l (0 : Fin 1))
      = ∑ d : Fin 128, k0_pay1 (F := Ideal) x0 x1 (ix2 l d) * k0_pay1 (F := Ideal) x0 x1 (ix2 l d) := by
  unfold k0_pay5
  exact (congrFun (shapeCast_self (k0_pay4 (F := Ideal) x0 x1) shapeCasts_S2048x1_S2048x1) (ix2 l (0 : Fin 1))).trans (pay4_apply x0 x1 l)

/-- The stored row of squared norms at (0, l): the column transposed. -/
theorem pay6_apply (x0 : Vec Ideal S1x2048x512 .f32) (x1 : Vec Ideal S128x512 .f32) (l : Fin 2048) :
    k0_pay6 (F := Ideal) x0 x1 (ix2 (0 : Fin 1) l)
      = ∑ d : Fin 128, k0_pay1 (F := Ideal) x0 x1 (ix2 l d) * k0_pay1 (F := Ideal) x0 x1 (ix2 l d) := by
  unfold k0_pay6
  refine (congrFun (shapeCast_self _ shapeCasts_S1x2048_S1x2048) (ix2 (0 : Fin 1) l)).trans ?_
  exact (transpose_ix2_apply (k0_pay4 (F := Ideal) x0 x1) transposes_S2048x1_p1_0_S1x2048 (0 : Fin 1) l).trans (pay4_apply x0 x1 l)

/-! ## One tile of distances -/

/-- The left operand's row is the output's row (the tile's product). -/
theorem gramDot_lhs_0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
/-- The left operand's column is the contraction coordinate. -/
theorem gramDot_lhs_1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
/-- The right operand's row is the output's column. -/
theorem gramDot_rhs_0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
/-- The right operand's column is the contraction coordinate. -/
theorem gramDot_rhs_1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- A product of two [1024, 128] vectors over their second axes into the zero accumulator, at (p, q): the inner
    product of row p of the first and row q of the second. -/
theorem gramDot_apply (a b : FVec Ideal S1024x128 .f32) (p q : Fin 1024) :
    matmul dot_S1024x128_S1024x128_S1024x1024_1_1_0_0_n_n (some .fp32) a b (constant (F := Ideal) S1024x1024 .f32 0x00000000#32) (ix2 p q)
      = ∑ d : Fin 128, a (ix2 p d) * b (ix2 q d) := by
  refine (Ideal.matmul_constant_zero_apply dot_S1024x128_S1024x128_S1024x1024_1_1_0_0_n_n (some .fp32) a b (ix2 p q)).trans ?_
  rw [← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 p q) ((contrEquiv1 dot_S1024x128_S1024x128_S1024x1024_1_1_0_0_n_n 128 rfl rfl).symm k) = ix2 p k := funext fun ax => Fin.ext (by
    match ax with
    | ⟨0, _⟩ => exact gramDot_lhs_0 _ _
    | ⟨1, _⟩ => exact (gramDot_lhs_1 _ _).trans hk)
  have er : dot_S1024x128_S1024x128_S1024x1024_1_1_0_0_n_n.rhsIdx (ix2 p q) ((contrEquiv1 dot_S1024x128_S1024x128_S1024x1024_1_1_0_0_n_n 128 rfl rfl).symm k) = ix2 q k := funext fun ax => Fin.ext (by
    match ax with
    | ⟨0, _⟩ => exact gramDot_rhs_0 _ _
    | ⟨1, _⟩ => exact (gramDot_rhs_1 _ _).trans hk)
  rw [el, er]

/-- One tile of distances at (0, p, q): the two norms' sum less twice the inner product of the two rows. -/
theorem pay7_apply (v7 v10 : Vec Ideal S1024x128 .f32) (v13 : Vec Ideal S1024x1 .f32) (v16 : Vec Ideal S1x1024 .f32) (p q : Fin 1024) :
    k0_pay7 (F := Ideal) v7 v10 v13 v16 (ix3 (0 : Fin 1) p q)
      = (v13 (ix2 p (0 : Fin 1)) + v16 (ix2 (0 : Fin 1) q)) - Cert.Spec.two * ∑ d : Fin 128, v7 (ix2 p d) * v10 (ix2 q d) := by
  unfold k0_pay7
  refine (shapeCast_ab_1ab_apply _ shapeCasts_S1024x1024_S1x1024x1024 (0 : Fin 1) p q).trans ?_
  show (broadcastTo S1024x1024 v13 broadcasts_S1024x1_S1024x1024 (ix2 p q) + broadcastTo S1024x1024 v16 broadcasts_S1x1024_S1024x1024 (ix2 p q))
      - Cert.Spec.two * matmul dot_S1024x128_S1024x128_S1024x1024_1_1_0_0_n_n (some .fp32) v7 v10 (constant (F := Ideal) S1024x1024 .f32 0x00000000#32) (ix2 p q) = _
  rw [broadcastTo_a1_ab_apply v13 broadcasts_S1024x1_S1024x1024 p q, broadcastTo_1b_ab_apply v16 broadcasts_S1x1024_S1024x1024 p q,
    gramDot_apply v7 v10 p q]

end Cert.Payload

end
-- ==== Proof.IdealBody.lean ====
/-
  The kernel's body, point by point, and the run of the pipelined region.

  The grid is (batch, row tile, column tile) = (4, 2, 2). At a batch's first point (both tile coordinates zero) the
  body projects the batch's 2048 rows (a matrix product with the weight), keeps the projection in a scratch buffer
  and stores it into the first output's staging buffer, and keeps the rows' squared norms in two more scratch
  buffers, once as a column and once as a row. At every point it stores one 1024 × 1024 tile of squared distances
  computed from what the scratch holds. The first output's block index moves only with the batch, so its staging
  buffer is written back at the batch's LAST point, where the body stores nothing into it: the buffer still holds
  what the batch's first point stored, because no point in between writes it back or touches it.

  Everything here is stated for any instance `F` of the floats: the frame claim is read off it at the word-level
  instance and at the ideal one alike, and the value claim at the ideal one.
-/
import proofs.«140037_j16681652977790_2_alg».proof.Proof.Gen.KernelIdeal.Frame
import proofs.«140037_j16681652977790_2_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Conditions, memrefs, the pieces the body computes -/

/-- The body's one branch: taken exactly at the first point of a batch (both tile coordinates zero). -/
abbrev cond0 (i : grid0.Coords) : Prop := k0_cond1 i = 1#1

theorem hz3 : (![0, 0, 0] : Fin 3 → Nat) = fun _ => 0 := by funext a; fin_cases a <;> rfl
theorem hz2 : (![0, 0] : Fin 2 → Nat) = fun _ => 0 := by funext a; fin_cases a <;> rfl

/-- One store through the whole-shape rectangle at zero offsets leaves its payload, whatever the buffer held. -/
theorem read_store_whole {sg : RefSig} {κ : Kind} {sp : Space} {S : Shape} {e : EltTy} {Val : EltTy → Type} [∀ e, Nonempty (Val e)]
    {v : View sg κ sp S e} {f : v.ty.Contents Val} {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩),
    View.canon_unit_zero h]

/-- The distance tile the body stores at grid coordinates `i`, from what the three scratch buffers hold: the rows
    `1024·i₁ …` and `1024·i₂ …` of the projected batch, the squared norms of the first as a column and of the second
    as a row. -/
def tile (i : grid0.Coords) (S0 : Vec F S2048x128 .f32) (S1 : Vec F S2048x1 .f32) (S2 : Vec F S1x2048 .f32) :
    Vec F S1x1024x1024 .f32 :=
  k0_pay7 (View.ld S0 (Rect.unit (s := S2048x128) (k0_off1 i) S1024x128.size (k0_off1_inb i)))
    (View.ld S0 (Rect.unit (s := S2048x128) (k0_off2 i) S1024x128.size (k0_off2_inb i)))
    (View.ld S1 (Rect.unit (s := S2048x1) (k0_off3 i) S1024x1.size (k0_off3_inb i)))
    (View.ld S2 (Rect.unit (s := S1x2048) (k0_off4 i) S1x1024.size (k0_off4_inb i)))

set_option maxHeartbeats 1000000 in
/-- The body away from a batch's first point: it reads the three scratch buffers and stores the distance tile; the
    projection's output buffer and the scratch are left as found. -/
theorem runB (c : Dev nD) (i : grid0.Coords) (arg3 : Memref sig .tc .vmem S1x2048x512 .f32) (harg3 : arg3.IsWhole) (arg4 : Memref sig .tc .vmem S128x512 .f32) (harg4 : arg4.IsWhole) (arg5 : Memref sig .tc .vmem S1x2048x128 .f32) (harg5 : arg5.IsWhole) (arg6 : Memref sig .tc .vmem S1x1024x1024 .f32) (harg6 : arg6.IsWhole) (arg7 : Memref sig .tc .vmem S2048x128 .f32) (harg7 : arg7.IsWhole) (arg8 : Memref sig .tc .vmem S2048x1 .f32) (harg8 : arg8.IsWhole) (arg9 : Memref sig .tc .vmem S1x2048 .f32) (harg9 : arg9.IsWhole) (hc0 : ¬cond0 i)
    (x0 : Vec F S1x2048x512 .f32) (x1 : Vec F S128x512 .f32) (x2 : Vec F S1x2048x128 .f32) (s0 : Vec F S2048x128 .f32) (s1 : Vec F S2048x1 .f32) (s2 : Vec F S1x2048 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare s0 ∗ owns (c : Thread nD τ) arg8 fullShare s1 ∗ owns (c : Thread nD τ) arg9 fullShare s2
            ∗ (iprop(owns (c : Thread nD τ) arg3 fullShare x0 ∗ owns (c : Thread nD τ) arg4 fullShare x1 ∗ owns (c : Thread nD τ) arg5 fullShare x2 ∗ owns (c : Thread nD τ) arg6 fullShare (tile i s0 s1 s2) ∗ owns (c : Thread nD τ) arg7 fullShare s0 ∗ owns (c : Thread nD τ) arg8 fullShare s1 ∗ owns (c : Thread nD τ) arg9 fullShare s2) -∗ K ⟨⟩))
          ⊢ wp frame (wpE (defs₀ (F := F)) Variants.none c none) E (cc0__kernel i arg3 harg3 arg4 harg4 arg5 harg5 arg6 harg6 arg7 harg7 arg8 harg8 arg9 harg9) K := by
    intro E K
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, ⟨%fs2, %hs2, HS2⟩, Hk⟩
    obtain rfl := harg3.eq_unread hf0; obtain rfl := harg4.eq_unread hf1; obtain rfl := harg5.eq_unread hf2
    obtain rfl := harg7.eq_unread hs0; obtain rfl := harg8.eq_unread hs1; obtain rfl := harg9.eq_unread hs2
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro
      rw [read_store_whole (S := S1x1024x1024) hz3]
      simp only [View.readAt_eq_ld, harg7.read_unread, harg8.read_unread, harg9.read_unread]
      rfl
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

set_option maxHeartbeats 1000000 in
/-- The body at a batch's first point: it projects the batch, stores the projection into the first output's staging
    buffer and into scratch, the rows' squared norms into scratch as a column and as a row, and then the distance tile
    from what it has just stored. -/
theorem runA (c : Dev nD) (i : grid0.Coords) (arg3 : Memref sig .tc .vmem S1x2048x512 .f32) (harg3 : arg3.IsWhole) (arg4 : Memref sig .tc .vmem S128x512 .f32) (harg4 : arg4.IsWhole) (arg5 : Memref sig .tc .vmem S1x2048x128 .f32) (harg5 : arg5.IsWhole) (arg6 : Memref sig .tc .vmem S1x1024x1024 .f32) (harg6 : arg6.IsWhole) (arg7 : Memref sig .tc .vmem S2048x128 .f32) (harg7 : arg7.IsWhole) (arg8 : Memref sig .tc .vmem S2048x1 .f32) (harg8 : arg8.IsWhole) (arg9 : Memref sig .tc .vmem S1x2048 .f32) (harg9 : arg9.IsWhole) (hc0 : cond0 i)
    (x0 : Vec F S1x2048x512 .f32) (x1 : Vec F S128x512 .f32) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare (k0_pay3 x0 x1) ∗ owns (c : Thread nD τ) arg6 fullShare (tile i (k0_pay2 x0 x1) (k0_pay5 x0 x1) (k0_pay6 x0 x1)) ∗ owns (c : Thread nD τ) arg7 fullShare (k0_pay2 x0 x1) ∗ owns (c : Thread nD τ) arg8 fullShare (k0_pay5 x0 x1) ∗ owns (c : Thread nD τ) arg9 fullShare (k0_pay6 x0 x1)) -∗ K ⟨⟩))
          ⊢ wp frame (wpE (defs₀ (F := F)) Variants.none c none) E (cc0__kernel i arg3 harg3 arg4 harg4 arg5 harg5 arg6 harg6 arg7 harg7 arg8 harg8 arg9 harg9) K := by
    intro E K
    simp only [cc0__kernel_eq_skeleton]; unfold cc0__kernel_skel
    unfold owns
    iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, ⟨%ds2, %fs2, -, HS2⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [read_store_whole (S := S1x2048x128) hz3]
      simp only [View.readAt_eq_ld, harg3.read_unread, harg4.read_unread, View.ld_unit_zero (S := S1x2048x512) hz3, View.ld_unit_zero (S := S128x512) hz2]
    isplitl [H3]
    · iexists _; isplitr; swap; · iexact H3
      ipureintro
      sl_unfold_run_names
      rw [read_store_whole (S := S1x1024x1024) hz3]
      simp only [View.readAt_eq_ld, read_store_whole (S := S2048x128) hz2, read_store_whole (S := S2048x1) hz2, read_store_whole (S := S1x2048) hz2, harg3.read_unread, harg4.read_unread, View.ld_unit_zero (S := S1x2048x512) hz3, View.ld_unit_zero (S := S128x512) hz2]
      rfl
    isplitl [HS0]
    · iexists _; isplitr; swap; · iexact HS0
      ipureintro
      sl_unfold_run_names
      rw [read_store_whole (S := S2048x128) hz2]
      simp only [View.readAt_eq_ld, harg3.read_unread, harg4.read_unread, View.ld_unit_zero (S := S1x2048x512) hz3, View.ld_unit_zero (S := S128x512) hz2]
    isplitl [HS1]
    · iexists _; isplitr; swap; · iexact HS1
      ipureintro
      sl_unfold_run_names
      rw [read_store_whole (S := S2048x1) hz2]
      simp only [View.readAt_eq_ld, harg3.read_unread, harg4.read_unread, View.ld_unit_zero (S := S1x2048x512) hz3, View.ld_unit_zero (S := S128x512) hz2]
    iexists _; isplitr; swap; · iexact HS2
    ipureintro
    sl_unfold_run_names
    rw [read_store_whole (S := S1x2048) hz2]
    simp only [View.readAt_eq_ld, harg3.read_unread, harg4.read_unread, View.ld_unit_zero (S := S1x2048x512) hz3, View.ld_unit_zero (S := S128x512) hz2]

/-! ## The schedule, decided over the sixteen grid points

The grid is (batch, row tile, column tile) = (4, 2, 2), in row-major order: point `t` has batch `t / 4`, and a
batch's first point is `t - t % 4`. -/

/-- The branch is taken at the points ≡ 0 (mod 4). -/
theorem hcond : ∀ t : Fin cfg0.N, cond0 (grid0.coords t) ↔ t.val % 4 = 0 :=
  (by decide +kernel : ∀ t : Fin grid0.N, cond0 (grid0.coords t) ↔ t.val % 4 = 0)

/-- The inputs and the distance window are live at every point; the projection's output window is idle exactly
    where the branch is not taken. -/
theorem live0 : ∀ t : Fin cfg0.N, cfg0.idle 0 (grid0.coords t) = false := by decide +kernel
theorem live1 : ∀ t : Fin cfg0.N, cfg0.idle 1 (grid0.coords t) = false := by decide +kernel
theorem live3 : ∀ t : Fin cfg0.N, cfg0.idle 3 (grid0.coords t) = false := by decide +kernel
theorem idle2 : ∀ t : Fin cfg0.N, cfg0.idle 2 (grid0.coords t) = true ↔ t.val % 4 ≠ 0 :=
  (by decide +kernel : ∀ t : Fin grid0.N, cfg0.idle 2 (grid0.coords t) = true ↔ t.val % 4 ≠ 0)

/-- The first point of `t`'s batch. -/
def base (t : Fin cfg0.N) : Fin cfg0.N := ⟨t.val - t.val % 4, lt_of_le_of_lt (Nat.sub_le _ _) t.isLt⟩

theorem base_of_first (t : Fin cfg0.N) (h : t.val % 4 = 0) : base t = t := by
  apply Fin.ext; show t.val - t.val % 4 = t.val; omega

theorem base_pred (t : Fin cfg0.N) (h : t.val % 4 ≠ 0) :
    base ⟨t.val - 1, Nat.lt_of_le_of_lt (Nat.sub_le _ _) t.isLt⟩ = base t := by
  apply Fin.ext; show (t.val - 1) - (t.val - 1) % 4 = t.val - t.val % 4; omega

/-! ## The staging memrefs at a point, and the scratch -/

abbrev ms0_0 (t : Fin cfg0.N) : Memref sig .tc .vmem S1x2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .f32 := win0_3.stage (cfg0.slots t 3)
abbrev hs0_3 (t : Fin cfg0.N) : (ms0_3 t).IsWhole := hstage0_3 ((cfg0.slots t 3).cast nbuf0_3)
abbrev scM0 : Memref sig .tc .vmem S2048x128 .f32 := Memref.whole cc0_scratch0
abbrev scM1 : Memref sig .tc .vmem S2048x1 .f32 := Memref.whole cc0_scratch1
abbrev scM2 : Memref sig .tc .vmem S1x2048 .f32 := Memref.whole cc0_scratch2

/-- What the region hands the body beside the windows: the three scratch buffers at some contents and the generator
    register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

variable (m : (ℓ : Loc nD τ sig) → Buf (Elt F) ℓ) (ρ : Dev nD → PrngReg)

/-! ## What each buffer holds, point by point

Everything a batch's points use is computed at the batch's first point from the two input blocks found there:
the projected rows (kept in a scratch buffer and in the first output's staging buffer), their squared norms as a
column and as a row (two more scratch buffers). -/

/-- The embeddings' block and the weight as the body finds them at point `u`. -/
def X0 (c : Dev nD) (u : Fin cfg0.N) : Vec F S1x2048x512 .f32 := iblk m c 0 u
def X1 (c : Dev nD) (u : Fin cfg0.N) : Vec F S128x512 .f32 := iblk m c 1 u

/-- The projected batch as the first output's staging buffer holds it, and as the scratch holds it; the squared norms
    as a column and as a row: all from the blocks at the batch's first point `u`. -/
def P3 (c : Dev nD) (u : Fin cfg0.N) : Vec F S1x2048x128 .f32 := k0_pay3 (X0 m c u) (X1 m c u)
def P2 (c : Dev nD) (u : Fin cfg0.N) : Vec F S2048x128 .f32 := k0_pay2 (X0 m c u) (X1 m c u)
def P5 (c : Dev nD) (u : Fin cfg0.N) : Vec F S2048x1 .f32 := k0_pay5 (X0 m c u) (X1 m c u)
def P6 (c : Dev nD) (u : Fin cfg0.N) : Vec F S1x2048 .f32 := k0_pay6 (X0 m c u) (X1 m c u)

/-- The distance tile stored at point `t`. -/
def T3 (c : Dev nD) (t : Fin cfg0.N) : Vec F S1x1024x1024 .f32 :=
  tile (grid0.coords t) (P2 m c (base t)) (P5 m c (base t)) (P6 m c (base t))

/-- The region invariant: before the first point the scratch holds anything; after point `n` it holds what the
    first point of `n`'s batch computed. -/
def PhiS (c : Dev nD) : (n : ℕ) → n ≤ cfg0.N → sProp 𝕄
  | 0, _ => Pipeline.ΦA spec0 c
  | n + 1, hn => iprop(iprop(owns (c : Thread nD τ) scM0 fullShare (P2 m c (base ⟨n, hn⟩)) ∗ owns (c : Thread nD τ) scM1 fullShare (P5 m c (base ⟨n, hn⟩)) ∗ owns (c : Thread nD τ) scM2 fullShare (P6 m c (base ⟨n, hn⟩))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (P2 m c (base ⟨n, hn⟩)) ∗ owns (c : Thread nD τ) scM1 fullShare (P5 m c (base ⟨n, hn⟩)) ∗ owns (c : Thread nD τ) scM2 fullShare (P6 m c (base ⟨n, hn⟩))) ∗ (∃ r, prngReg c r)) := rfl

theorem PhiS_pos (c : Dev nD) (n : ℕ) (h : n ≤ cfg0.N) (hz : n ≠ 0) :
    PhiS m c n h = iprop(iprop(owns (c : Thread nD τ) scM0 fullShare (P2 m c (base ⟨n - 1, by omega⟩)) ∗ owns (c : Thread nD τ) scM1 fullShare (P5 m c (base ⟨n - 1, by omega⟩)) ∗ owns (c : Thread nD τ) scM2 fullShare (P6 m c (base ⟨n - 1, by omega⟩))) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => P3 m c (base t)
    | ⟨3, _⟩ => T3 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = P3 m c (base t) := by dsimp only [dats]
theorem after3 (c : Dev nD) (t : Fin cfg0.N) : (dats m 0 c).after 3 t = T3 m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- Away from a batch's first point the first output's staging buffer still holds the projected batch: it was stored
    at the batch's first point, no point of the batch before the last writes it back, and the body does not touch
    it in between. -/
theorem before2 (c : Dev nD) : ∀ (n : ℕ) (hn : n < cfg0.N), n % 4 ≠ 0 → ∀ d,
    (dats m 0 c).before 2 ⟨n, hn⟩ d = (dats m 0 c).after 2 ⟨n, hn⟩ := by
  intro n
  induction n with
  | zero => intro hn h; exact absurd rfl h
  | succ k ih =>
    intro hn h d
    have hN : k + 1 < 16 := lt_of_lt_of_eq hn (show cfg0.N = 16 from N_0)
    have hk : k < cfg0.N := Nat.lt_of_succ_lt hn
    have hfl : (cfg0.win 2).flush ⟨k, hk⟩ = false := by
      rw [Bool.eq_false_iff]; intro hf; have := (flush0_2 ⟨k, hk⟩).mp hf; dsimp only at this; omega
    rw [(dats m 0 c).before_of_pos 2 ⟨k + 1, hn⟩ (Nat.succ_ne_zero k) ((cfg0.win 2).fetch_out rfl _) d]
    show (if (cfg0.win 2).flush ⟨k, hk⟩ = true then d else (dats m 0 c).left 2 ⟨k, hk⟩ d) = _
    rw [hfl, if_neg Bool.false_ne_true]
    rw [after2, ← base_pred ⟨k + 1, hn⟩ h]
    show (dats m 0 c).left 2 ⟨k, hk⟩ d = P3 m c (base ⟨k, hk⟩)
    unfold Dat.left
    by_cases hk4 : k % 4 = 0
    · have hi : cfg0.idle 2 (grid0.coords ⟨k, hk⟩) = false := by
        rw [Bool.eq_false_iff]; intro hi; exact ((idle2 ⟨k, hk⟩).mp hi) hk4
      rw [hi]
      show (dats m 0 c).kept 2 ⟨k, hk⟩ d = _
      unfold Dat.kept
      rw [Pipeline.fill_of_clip_none 2 _ (fun _ => rfl) d ((dats m 0 c).after 2 ⟨k, hk⟩), Window.fill_cut, after2]
    · have hi : cfg0.idle 2 (grid0.coords ⟨k, hk⟩) = true := (idle2 ⟨k, hk⟩).mpr hk4
      rw [hi]
      show (dats m 0 c).before 2 ⟨k, hk⟩ d = _
      rw [ih hk hk4 d, after2]

/-! ## The body obligation -/

theorem X0_eq (c : Dev nD) (t : Fin cfg0.N) : iblk m c 0 t = X0 m c t := rfl
theorem X1_eq (c : Dev nD) (t : Fin cfg0.N) : iblk m c 1 t = X1 m c t := rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
/-- The body at any point. At a batch's first point it computes and stores everything the batch uses; at the other
    points it finds the scratch as the batch's first point left it and only stores the distance tile, leaving the first
    output's staging buffer as it found it — which at the batch's last point, where that buffer is written back, is
    still the projected batch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [X0_eq, X1_eq]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [live0 t], after0, X0_eq]
  rw [show (dats m 0 c).leavesExact 1 t = owns (c : Thread nD τ) (ms0_1 t) fullShare ((dats m 0 c).after 1 t) from by
    unfold Dat.leavesExact; rw [live1 t], after1, X1_eq]
  rw [show (dats m 0 c).leavesExact 3 t = owns (c : Thread nD τ) (ms0_3 t) fullShare ((dats m 0 c).after 3 t) from by
    unfold Dat.leavesExact; rw [live3 t], after3]
  have hN : t.val < 16 := lt_of_lt_of_eq t.isLt (show cfg0.N = 16 from N_0)
  by_cases h0 : t.val % 4 = 0
  · have hi2 : cfg0.idle 2 (grid0.coords t) = false := by
      rw [Bool.eq_false_iff]; intro hi; exact ((idle2 t).mp hi) h0
    rw [show (dats m 0 c).leavesExact 2 t = owns (c : Thread nD τ) (ms0_2 t) fullShare ((dats m 0 c).after 2 t) from by
      unfold Dat.leavesExact; rw [hi2], after2]
    unfold T3
    rw [show base ⟨t.val, t.isLt⟩ = t from base_of_first t h0]
    unfold P2 P3 P5 P6
    by_cases hz : t.val = 0
    · rw [PhiS_castSucc m c t, PhiS_zero m c _ _ hz, PhiA_eq]
      iintro ⟨⟨⟨HS0, HS1, HS2⟩, Hg⟩, Ho, ⟨%d0, H0⟩, ⟨%d1, H1⟩, ⟨%d2, H2⟩, ⟨%d3, H3⟩⟩
      iapply (runA c (grid0.coords t) _ _ _ _ _ _ _ _ _ _ _ _ _ _ ((hcond t).mpr h0) (X0 m c t) (X1 m c t) Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply (runA c (grid0.coords t) _ _ _ _ _ _ _ _ _ _ _ _ _ _ ((hcond t).mpr h0) (X0 m c t) (X1 m c t) Set.univ _)
      isplitl [H0]; · iexact H0
      isplitl [H1]; · iexact H1
      isplitl [H2]; · iexists _; iexact H2
      isplitl [H3]; · iexists _; iexact H3
      isplitl [HS0]; · iexists _; iexact HS0
      isplitl [HS1]; · iexists _; iexact HS1
      isplitl [HS2]; · iexists _; iexact HS2
      iintro ⟨H0, H1, H2, H3, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3
  · have hz : t.val ≠ 0 := fun hz => h0 (by rw [hz])
    have hi2 : cfg0.idle 2 (grid0.coords t) = true := (idle2 t).mpr h0
    rw [PhiS_castSucc m c t, PhiS_pos m c _ _ hz]
    rw [show base ⟨t.val - 1, (by omega : t.val - 1 < cfg0.N)⟩ = base t from base_pred t h0,
      show base ⟨t.val, t.isLt⟩ = base t from rfl]
    unfold T3
    by_cases h3 : t.val % 4 = 3
    · have hf2 : (cfg0.win 2).flush t = true := (flush0_2 t).mpr h3
      rw [show (dats m 0 c).leavesExact 2 t = owns (c : Thread nD τ) (ms0_2 t) fullShare ((dats m 0 c).after 2 t) from by
        unfold Dat.leavesExact; rw [hi2, hf2]]
      iintro ⟨⟨⟨HS0, HS1, HS2⟩, Hg⟩, Ho, ⟨%d0, H0⟩, ⟨%d1, H1⟩, ⟨%d2, H2⟩, ⟨%d3, H3⟩⟩
      rw [show (dats m 0 c).before 2 t d2 = (dats m 0 c).after 2 t from before2 m c t.val t.isLt h0 d2]
      iapply (runB c (grid0.coords t) _ _ _ _ _ _ _ _ _ _ _ _ _ _ (fun h => h0 ((hcond t).mp h)) (X0 m c t) (X1 m c t) ((dats m 0 c).after 2 t) (P2 m c (base t)) (P5 m c (base t)) (P6 m c (base t)) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3
    · have hf2 : (cfg0.win 2).flush t = false := by
        rw [Bool.eq_false_iff]; intro hf; exact h3 ((flush0_2 t).mp hf)
      rw [Dat.leavesExact_idle (dats m 0 c) 2 t hi2 hf2]
      iintro ⟨⟨⟨HS0, HS1, HS2⟩, Hg⟩, Ho, ⟨%d0, H0⟩, ⟨%d1, H1⟩, ⟨%d2, H2⟩, ⟨%d3, H3⟩⟩
      iapply (runB c (grid0.coords t) _ _ _ _ _ _ _ _ _ _ _ _ _ _ (fun h => h0 ((hcond t).mp h)) (X0 m c t) (X1 m c t) ((dats m 0 c).before 2 t d2) (P2 m c (base t)) (P5 m c (base t)) (P6 m c (base t)) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexists _; iexact H2
      iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the scratch holds anything. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every weakly fair execution of @main terminates, nothing faulting, every array of the pipeline at what the
    write-backs of the proof data leave and every other unscoped buffer as at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.BitsBody.lean ====
/-
  The kernel's body, point by point, and the run of the pipelined region.

  The grid is (batch, row tile, column tile) = (4, 2, 2). At a batch's first point (both tile coordinates zero) the
  body projects the batch's 2048 rows (a matrix product with the weight), keeps the projection in a scratch buffer
  and stores it into the first output's staging buffer, and keeps the rows' squared norms in two more scratch
  buffers, once as a column and once as a row. At every point it stores one 1024 × 1024 tile of squared distances
  computed from what the scratch holds. The first output's block index moves only with the batch, so its staging
  buffer is written back at the batch's LAST point, where the body stores nothing into it: the buffer still holds
  what the batch's first point stored, because no point in between writes it back or touches it.

  Everything here is stated for any instance `F` of the floats: the frame claim is read off it at the word-level
  instance and at the ideal one alike, and the value claim at the ideal one.
-/
import proofs.«140037_j16681652977790_2_alg».proof.Proof.Gen.Kernel.Frame
import proofs.«140037_j16681652977790_2_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Conditions, memrefs, the pieces the body computes -/

/-- The body's one branch: taken exactly at the first point of a batch (both tile coordinates zero). -/
abbrev cond0 (i : grid0.Coords) : Prop := k0_cond1 i = 1#1

theorem hz3 : (![0, 0, 0] : Fin 3 → Nat) = fun _ => 0 := by funext a; fin_cases a <;> rfl
theorem hz2 : (![0, 0] : Fin 2 → Nat) = fun _ => 0 := by funext a; fin_cases a <;> rfl

/-- One store through the whole-shape rectangle at zero offsets leaves its payload, whatever the buffer held. -/
theorem read_store_whole {sg : RefSig} {κ : Kind} {sp : Space} {S : Shape} {e : EltTy} {Val : EltTy → Type} [∀ e, Nonempty (Val e)]
    {v : View sg κ sp S e} {f : v.ty.Contents Val} {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩),
    View.canon_unit_zero h]

/-- The distance tile the body stores at grid coordinates `i`, from what the three scratch buffers hold: the rows
    `1024·i₁ …` and `1024·i₂ …` of the projected batch, the squared norms of the first as a column and of the second
    as a row. -/
def tile (i : grid0.Coords) (S0 : Vec F S2048x128 .f32) (S1 : Vec F S2048x1 .f32) (S2 : Vec F S1x2048 .f32) :
    Vec F S1x1024x1024 .f32 :=
  k0_pay7 (View.ld S0 (Rect.unit (s := S2048x128) (k0_off1 i) S1024x128.size (k0_off1_inb i)))
    (View.ld S0 (Rect.unit (s := S2048x128) (k0_off2 i) S1024x128.size (k0_off2_inb i)))
    (View.ld S1 (Rect.unit (s := S2048x1) (k0_off3 i) S1024x1.size (k0_off3_inb i)))
    (View.ld S2 (Rect.unit (s := S1x2048) (k0_off4 i) S1x1024.size (k0_off4_inb i)))

set_option maxHeartbeats 1000000 in
/-- The body away from a batch's first point: it reads the three scratch buffers and stores the distance tile; the
    projection's output buffer and the scratch are left as found. -/
theorem runB (c : Dev nD) (i : grid0.Coords) (arg3 : Memref sig .tc .vmem S1x2048x512 .f32) (harg3 : arg3.IsWhole) (arg4 : Memref sig .tc .vmem S128x512 .f32) (harg4 : arg4.IsWhole) (arg5 : Memref sig .tc .vmem S1x2048x128 .f32) (harg5 : arg5.IsWhole) (arg6 : Memref sig .tc .vmem S1x1024x1024 .f32) (harg6 : arg6.IsWhole) (arg7 : Memref sig .tc .vmem S2048x128 .f32) (harg7 : arg7.IsWhole) (arg8 : Memref sig .tc .vmem S2048x1 .f32) (harg8 : arg8.IsWhole) (arg9 : Memref sig .tc .vmem S1x2048 .f32) (harg9 : arg9.IsWhole) (hc0 : ¬cond0 i)
    (x0 : Vec F S1x2048x512 .f32) (x1 : Vec F S128x512 .f32) (x2 : Vec F S1x2048x128 .f32) (s0 : Vec F S2048x128 .f32) (s1 : Vec F S2048x1 .f32) (s2 : Vec F S1x2048 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare s0 ∗ owns (c : Thread nD τ) arg8 fullShare s1 ∗ owns (c : Thread nD τ) arg9 fullShare s2
            ∗ (iprop(owns (c : Thread nD τ) arg3 fullShare x0 ∗ owns (c : Thread nD τ) arg4 fullShare x1 ∗ owns (c : Thread nD τ) arg5 fullShare x2 ∗ owns (c : Thread nD τ) arg6 fullShare (tile i s0 s1 s2) ∗ owns (c : Thread nD τ) arg7 fullShare s0 ∗ owns (c : Thread nD τ) arg8 fullShare s1 ∗ owns (c : Thread nD τ) arg9 fullShare s2) -∗ K ⟨⟩))
          ⊢ wp frame (wpE (defs₀ (F := F)) Variants.none c none) E (cc0__kernel i arg3 harg3 arg4 harg4 arg5 harg5 arg6 harg6 arg7 harg7 arg8 harg8 arg9 harg9) K := by
    intro E K
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, ⟨%fs2, %hs2, HS2⟩, Hk⟩
    obtain rfl := harg3.eq_unread hf0; obtain rfl := harg4.eq_unread hf1; obtain rfl := harg5.eq_unread hf2
    obtain rfl := harg7.eq_unread hs0; obtain rfl := harg8.eq_unread hs1; obtain rfl := harg9.eq_unread hs2
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro
      rw [read_store_whole (S := S1x1024x1024) hz3]
      simp only [View.readAt_eq_ld, harg7.read_unread, harg8.read_unread, harg9.read_unread]
      rfl
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

set_option maxHeartbeats 1000000 in
/-- The body at a batch's first point: it projects the batch, stores the projection into the first output's staging
    buffer and into scratch, the rows' squared norms into scratch as a column and as a row, and then the distance tile
    from what it has just stored. -/
theorem runA (c : Dev nD) (i : grid0.Coords) (arg3 : Memref sig .tc .vmem S1x2048x512 .f32) (harg3 : arg3.IsWhole) (arg4 : Memref sig .tc .vmem S128x512 .f32) (harg4 : arg4.IsWhole) (arg5 : Memref sig .tc .vmem S1x2048x128 .f32) (harg5 : arg5.IsWhole) (arg6 : Memref sig .tc .vmem S1x1024x1024 .f32) (harg6 : arg6.IsWhole) (arg7 : Memref sig .tc .vmem S2048x128 .f32) (harg7 : arg7.IsWhole) (arg8 : Memref sig .tc .vmem S2048x1 .f32) (harg8 : arg8.IsWhole) (arg9 : Memref sig .tc .vmem S1x2048 .f32) (harg9 : arg9.IsWhole) (hc0 : cond0 i)
    (x0 : Vec F S1x2048x512 .f32) (x1 : Vec F S128x512 .f32) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare (k0_pay3 x0 x1) ∗ owns (c : Thread nD τ) arg6 fullShare (tile i (k0_pay2 x0 x1) (k0_pay5 x0 x1) (k0_pay6 x0 x1)) ∗ owns (c : Thread nD τ) arg7 fullShare (k0_pay2 x0 x1) ∗ owns (c : Thread nD τ) arg8 fullShare (k0_pay5 x0 x1) ∗ owns (c : Thread nD τ) arg9 fullShare (k0_pay6 x0 x1)) -∗ K ⟨⟩))
          ⊢ wp frame (wpE (defs₀ (F := F)) Variants.none c none) E (cc0__kernel i arg3 harg3 arg4 harg4 arg5 harg5 arg6 harg6 arg7 harg7 arg8 harg8 arg9 harg9) K := by
    intro E K
    simp only [cc0__kernel_eq_skeleton]; unfold cc0__kernel_skel
    unfold owns
    iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, ⟨%ds2, %fs2, -, HS2⟩, Hk⟩
    obtain rfl := harg3.eq_unread hf0; obtain rfl := harg4.eq_unread hf1
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [read_store_whole (S := S1x2048x128) hz3]
      simp only [View.readAt_eq_ld, harg3.read_unread, harg4.read_unread, View.ld_unit_zero (S := S1x2048x512) hz3, View.ld_unit_zero (S := S128x512) hz2]
    isplitl [H3]
    · iexists _; isplitr; swap; · iexact H3
      ipureintro
      sl_unfold_run_names
      rw [read_store_whole (S := S1x1024x1024) hz3]
      simp only [View.readAt_eq_ld, read_store_whole (S := S2048x128) hz2, read_store_whole (S := S2048x1) hz2, read_store_whole (S := S1x2048) hz2, harg3.read_unread, harg4.read_unread, View.ld_unit_zero (S := S1x2048x512) hz3, View.ld_unit_zero (S := S128x512) hz2]
      rfl
    isplitl [HS0]
    · iexists _; isplitr; swap; · iexact HS0
      ipureintro
      sl_unfold_run_names
      rw [read_store_whole (S := S2048x128) hz2]
      simp only [View.readAt_eq_ld, harg3.read_unread, harg4.read_unread, View.ld_unit_zero (S := S1x2048x512) hz3, View.ld_unit_zero (S := S128x512) hz2]
    isplitl [HS1]
    · iexists _; isplitr; swap; · iexact HS1
      ipureintro
      sl_unfold_run_names
      rw [read_store_whole (S := S2048x1) hz2]
      simp only [View.readAt_eq_ld, harg3.read_unread, harg4.read_unread, View.ld_unit_zero (S := S1x2048x512) hz3, View.ld_unit_zero (S := S128x512) hz2]
    iexists _; isplitr; swap; · iexact HS2
    ipureintro
    sl_unfold_run_names
    rw [read_store_whole (S := S1x2048) hz2]
    simp only [View.readAt_eq_ld, harg3.read_unread, harg4.read_unread, View.ld_unit_zero (S := S1x2048x512) hz3, View.ld_unit_zero (S := S128x512) hz2]

/-! ## The schedule, decided over the sixteen grid points

The grid is (batch, row tile, column tile) = (4, 2, 2), in row-major order: point `t` has batch `t / 4`, and a
batch's first point is `t - t % 4`. -/

/-- The branch is taken at the points ≡ 0 (mod 4). -/
theorem hcond : ∀ t : Fin cfg0.N, cond0 (grid0.coords t) ↔ t.val % 4 = 0 :=
  (by decide +kernel : ∀ t : Fin grid0.N, cond0 (grid0.coords t) ↔ t.val % 4 = 0)

/-- The inputs and the distance window are live at every point; the projection's output window is idle exactly
    where the branch is not taken. -/
theorem live0 : ∀ t : Fin cfg0.N, cfg0.idle 0 (grid0.coords t) = false := by decide +kernel
theorem live1 : ∀ t : Fin cfg0.N, cfg0.idle 1 (grid0.coords t) = false := by decide +kernel
theorem live3 : ∀ t : Fin cfg0.N, cfg0.idle 3 (grid0.coords t) = false := by decide +kernel
theorem idle2 : ∀ t : Fin cfg0.N, cfg0.idle 2 (grid0.coords t) = true ↔ t.val % 4 ≠ 0 :=
  (by decide +kernel : ∀ t : Fin grid0.N, cfg0.idle 2 (grid0.coords t) = true ↔ t.val % 4 ≠ 0)

/-- The first point of `t`'s batch. -/
def base (t : Fin cfg0.N) : Fin cfg0.N := ⟨t.val - t.val % 4, lt_of_le_of_lt (Nat.sub_le _ _) t.isLt⟩

theorem base_of_first (t : Fin cfg0.N) (h : t.val % 4 = 0) : base t = t := by
  apply Fin.ext; show t.val - t.val % 4 = t.val; omega

theorem base_pred (t : Fin cfg0.N) (h : t.val % 4 ≠ 0) :
    base ⟨t.val - 1, Nat.lt_of_le_of_lt (Nat.sub_le _ _) t.isLt⟩ = base t := by
  apply Fin.ext; show (t.val - 1) - (t.val - 1) % 4 = t.val - t.val % 4; omega

/-! ## The staging memrefs at a point, and the scratch -/

abbrev ms0_0 (t : Fin cfg0.N) : Memref sig .tc .vmem S1x2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .f32 := win0_3.stage (cfg0.slots t 3)
abbrev hs0_3 (t : Fin cfg0.N) : (ms0_3 t).IsWhole := hstage0_3 ((cfg0.slots t 3).cast nbuf0_3)
abbrev scM0 : Memref sig .tc .vmem S2048x128 .f32 := Memref.whole cc0_scratch0
abbrev scM1 : Memref sig .tc .vmem S2048x1 .f32 := Memref.whole cc0_scratch1
abbrev scM2 : Memref sig .tc .vmem S1x2048 .f32 := Memref.whole cc0_scratch2

/-- What the region hands the body beside the windows: the three scratch buffers at some contents and the generator
    register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

variable (m : (ℓ : Loc nD τ sig) → Buf (Elt F) ℓ) (ρ : Dev nD → PrngReg)

/-! ## What each buffer holds, point by point

Everything a batch's points use is computed at the batch's first point from the two input blocks found there:
the projected rows (kept in a scratch buffer and in the first output's staging buffer), their squared norms as a
column and as a row (two more scratch buffers). -/

/-- The embeddings' block and the weight as the body finds them at point `u`. -/
def X0 (c : Dev nD) (u : Fin cfg0.N) : Vec F S1x2048x512 .f32 := iblk m c 0 u
def X1 (c : Dev nD) (u : Fin cfg0.N) : Vec F S128x512 .f32 := iblk m c 1 u

/-- The projected batch as the first output's staging buffer holds it, and as the scratch holds it; the squared norms
    as a column and as a row: all from the blocks at the batch's first point `u`. -/
def P3 (c : Dev nD) (u : Fin cfg0.N) : Vec F S1x2048x128 .f32 := k0_pay3 (X0 m c u) (X1 m c u)
def P2 (c : Dev nD) (u : Fin cfg0.N) : Vec F S2048x128 .f32 := k0_pay2 (X0 m c u) (X1 m c u)
def P5 (c : Dev nD) (u : Fin cfg0.N) : Vec F S2048x1 .f32 := k0_pay5 (X0 m c u) (X1 m c u)
def P6 (c : Dev nD) (u : Fin cfg0.N) : Vec F S1x2048 .f32 := k0_pay6 (X0 m c u) (X1 m c u)

/-- The distance tile stored at point `t`. -/
def T3 (c : Dev nD) (t : Fin cfg0.N) : Vec F S1x1024x1024 .f32 :=
  tile (grid0.coords t) (P2 m c (base t)) (P5 m c (base t)) (P6 m c (base t))

/-- The region invariant: before the first point the scratch holds anything; after point `n` it holds what the
    first point of `n`'s batch computed. -/
def PhiS (c : Dev nD) : (n : ℕ) → n ≤ cfg0.N → sProp 𝕄
  | 0, _ => Pipeline.ΦA spec0 c
  | n + 1, hn => iprop(iprop(owns (c : Thread nD τ) scM0 fullShare (P2 m c (base ⟨n, hn⟩)) ∗ owns (c : Thread nD τ) scM1 fullShare (P5 m c (base ⟨n, hn⟩)) ∗ owns (c : Thread nD τ) scM2 fullShare (P6 m c (base ⟨n, hn⟩))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (P2 m c (base ⟨n, hn⟩)) ∗ owns (c : Thread nD τ) scM1 fullShare (P5 m c (base ⟨n, hn⟩)) ∗ owns (c : Thread nD τ) scM2 fullShare (P6 m c (base ⟨n, hn⟩))) ∗ (∃ r, prngReg c r)) := rfl

theorem PhiS_pos (c : Dev nD) (n : ℕ) (h : n ≤ cfg0.N) (hz : n ≠ 0) :
    PhiS m c n h = iprop(iprop(owns (c : Thread nD τ) scM0 fullShare (P2 m c (base ⟨n - 1, by omega⟩)) ∗ owns (c : Thread nD τ) scM1 fullShare (P5 m c (base ⟨n - 1, by omega⟩)) ∗ owns (c : Thread nD τ) scM2 fullShare (P6 m c (base ⟨n - 1, by omega⟩))) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => P3 m c (base t)
    | ⟨3, _⟩ => T3 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = P3 m c (base t) := by dsimp only [dats]
theorem after3 (c : Dev nD) (t : Fin cfg0.N) : (dats m 0 c).after 3 t = T3 m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- Away from a batch's first point the first output's staging buffer still holds the projected batch: it was stored
    at the batch's first point, no point of the batch before the last writes it back, and the body does not touch
    it in between. -/
theorem before2 (c : Dev nD) : ∀ (n : ℕ) (hn : n < cfg0.N), n % 4 ≠ 0 → ∀ d,
    (dats m 0 c).before 2 ⟨n, hn⟩ d = (dats m 0 c).after 2 ⟨n, hn⟩ := by
  intro n
  induction n with
  | zero => intro hn h; exact absurd rfl h
  | succ k ih =>
    intro hn h d
    have hN : k + 1 < 16 := lt_of_lt_of_eq hn (show cfg0.N = 16 from N_0)
    have hk : k < cfg0.N := Nat.lt_of_succ_lt hn
    have hfl : (cfg0.win 2).flush ⟨k, hk⟩ = false := by
      rw [Bool.eq_false_iff]; intro hf; have := (flush0_2 ⟨k, hk⟩).mp hf; dsimp only at this; omega
    rw [(dats m 0 c).before_of_pos 2 ⟨k + 1, hn⟩ (Nat.succ_ne_zero k) ((cfg0.win 2).fetch_out rfl _) d]
    show (if (cfg0.win 2).flush ⟨k, hk⟩ = true then d else (dats m 0 c).left 2 ⟨k, hk⟩ d) = _
    rw [hfl, if_neg Bool.false_ne_true]
    rw [after2, ← base_pred ⟨k + 1, hn⟩ h]
    show (dats m 0 c).left 2 ⟨k, hk⟩ d = P3 m c (base ⟨k, hk⟩)
    unfold Dat.left
    by_cases hk4 : k % 4 = 0
    · have hi : cfg0.idle 2 (grid0.coords ⟨k, hk⟩) = false := by
        rw [Bool.eq_false_iff]; intro hi; exact ((idle2 ⟨k, hk⟩).mp hi) hk4
      rw [hi]
      show (dats m 0 c).kept 2 ⟨k, hk⟩ d = _
      unfold Dat.kept
      rw [Pipeline.fill_of_clip_none 2 _ (fun _ => rfl) d ((dats m 0 c).after 2 ⟨k, hk⟩), Window.fill_cut, after2]
    · have hi : cfg0.idle 2 (grid0.coords ⟨k, hk⟩) = true := (idle2 ⟨k, hk⟩).mpr hk4
      rw [hi]
      show (dats m 0 c).before 2 ⟨k, hk⟩ d = _
      rw [ih hk hk4 d, after2]

/-! ## The body obligation -/

theorem X0_eq (c : Dev nD) (t : Fin cfg0.N) : iblk m c 0 t = X0 m c t := rfl
theorem X1_eq (c : Dev nD) (t : Fin cfg0.N) : iblk m c 1 t = X1 m c t := rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
/-- The body at any point. At a batch's first point it computes and stores everything the batch uses; at the other
    points it finds the scratch as the batch's first point left it and only stores the distance tile, leaving the first
    output's staging buffer as it found it — which at the batch's last point, where that buffer is written back, is
    still the projected batch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [X0_eq, X1_eq]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [live0 t], after0, X0_eq]
  rw [show (dats m 0 c).leavesExact 1 t = owns (c : Thread nD τ) (ms0_1 t) fullShare ((dats m 0 c).after 1 t) from by
    unfold Dat.leavesExact; rw [live1 t], after1, X1_eq]
  rw [show (dats m 0 c).leavesExact 3 t = owns (c : Thread nD τ) (ms0_3 t) fullShare ((dats m 0 c).after 3 t) from by
    unfold Dat.leavesExact; rw [live3 t], after3]
  have hN : t.val < 16 := lt_of_lt_of_eq t.isLt (show cfg0.N = 16 from N_0)
  by_cases h0 : t.val % 4 = 0
  · have hi2 : cfg0.idle 2 (grid0.coords t) = false := by
      rw [Bool.eq_false_iff]; intro hi; exact ((idle2 t).mp hi) h0
    rw [show (dats m 0 c).leavesExact 2 t = owns (c : Thread nD τ) (ms0_2 t) fullShare ((dats m 0 c).after 2 t) from by
      unfold Dat.leavesExact; rw [hi2], after2]
    unfold T3
    rw [show base ⟨t.val, t.isLt⟩ = t from base_of_first t h0]
    unfold P2 P3 P5 P6
    by_cases hz : t.val = 0
    · rw [PhiS_castSucc m c t, PhiS_zero m c _ _ hz, PhiA_eq]
      iintro ⟨⟨⟨HS0, HS1, HS2⟩, Hg⟩, Ho, ⟨%d0, H0⟩, ⟨%d1, H1⟩, ⟨%d2, H2⟩, ⟨%d3, H3⟩⟩
      iapply (runA c (grid0.coords t) _ _ _ _ _ _ _ _ _ _ _ _ _ _ ((hcond t).mpr h0) (X0 m c t) (X1 m c t) Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩⟩
      iapply (runA c (grid0.coords t) _ _ _ _ _ _ _ _ _ _ _ _ _ _ ((hcond t).mpr h0) (X0 m c t) (X1 m c t) Set.univ _)
      isplitl [H0]; · iexact H0
      isplitl [H1]; · iexact H1
      isplitl [H2]; · iexists _; iexact H2
      isplitl [H3]; · iexists _; iexact H3
      isplitl [HS0]; · iexists _; iexact HS0
      isplitl [HS1]; · iexists _; iexact HS1
      isplitl [HS2]; · iexists _; iexact HS2
      iintro ⟨H0, H1, H2, H3, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3
  · have hz : t.val ≠ 0 := fun hz => h0 (by rw [hz])
    have hi2 : cfg0.idle 2 (grid0.coords t) = true := (idle2 t).mpr h0
    rw [PhiS_castSucc m c t, PhiS_pos m c _ _ hz]
    rw [show base ⟨t.val - 1, (by omega : t.val - 1 < cfg0.N)⟩ = base t from base_pred t h0,
      show base ⟨t.val, t.isLt⟩ = base t from rfl]
    unfold T3
    by_cases h3 : t.val % 4 = 3
    · have hf2 : (cfg0.win 2).flush t = true := (flush0_2 t).mpr h3
      rw [show (dats m 0 c).leavesExact 2 t = owns (c : Thread nD τ) (ms0_2 t) fullShare ((dats m 0 c).after 2 t) from by
        unfold Dat.leavesExact; rw [hi2, hf2]]
      iintro ⟨⟨⟨HS0, HS1, HS2⟩, Hg⟩, Ho, ⟨%d0, H0⟩, ⟨%d1, H1⟩, ⟨%d2, H2⟩, ⟨%d3, H3⟩⟩
      rw [show (dats m 0 c).before 2 t d2 = (dats m 0 c).after 2 t from before2 m c t.val t.isLt h0 d2]
      iapply (runB c (grid0.coords t) _ _ _ _ _ _ _ _ _ _ _ _ _ _ (fun h => h0 ((hcond t).mp h)) (X0 m c t) (X1 m c t) ((dats m 0 c).after 2 t) (P2 m c (base t)) (P5 m c (base t)) (P6 m c (base t)) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3
    · have hf2 : (cfg0.win 2).flush t = false := by
        rw [Bool.eq_false_iff]; intro hf; exact h3 ((flush0_2 t).mp hf)
      rw [Dat.leavesExact_idle (dats m 0 c) 2 t hi2 hf2]
      iintro ⟨⟨⟨HS0, HS1, HS2⟩, Hg⟩, Ho, ⟨%d0, H0⟩, ⟨%d1, H1⟩, ⟨%d2, H2⟩, ⟨%d3, H3⟩⟩
      iapply (runB c (grid0.coords t) _ _ _ _ _ _ _ _ _ _ _ _ _ _ (fun h => h0 ((hcond t).mp h)) (X0 m c t) (X1 m c t) ((dats m 0 c).before 2 t d2) (P2 m c (base t)) (P5 m c (base t)) (P6 m c (base t)) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexists _; iexact H2
      iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the scratch holds anything. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every weakly fair execution of @main terminates, nothing faulting, every array of the pipeline at what the
    write-backs of the proof data leave and every other unscoped buffer as at the region's entry. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.IdealValue.lean ====
/-
  What the two result arrays hold after the run, as whole-array functions of the two argument arrays, at the ideal
  instance.

  Point `t` of the grid has batch `t / 4`, row tile `t / 2 % 2` and column tile `t % 2`. The first result's block
  for a batch (all 2048 projected rows) is written back at the batch's last point; the second result's 1024 × 1024
  tile at every point. Each written block is the block of ONE function of the argument arrays — the specification's
  projection, and its all-pairs squared distances —, and the blocks written cover both arrays.
-/
import proofs.«140037_j16681652977790_2_alg».proof.Proof.IdealBody
import proofs.«140037_j16681652977790_2_alg».proof.Proof.Payload
import proofs.«140037_j16681652977790_2_alg».proof.Proof.Spec
import Idealize.ShloMosaic.Lib.ValueIdx
import Idealize.ShloMosaic.Lib.Pipeline.Value

set_option maxRecDepth 16384

noncomputable section

namespace Cert.KernelIdeal.Blocks

open Cert.KernelIdeal Cert.KernelIdeal.Gen Cert.KernelIdeal.Body Cert.Payload Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The index maps and the body's offsets, decided over the sixteen points -/

theorem idx0 : ∀ t : Fin cfg0.N, win0_0.index t (0 : Fin 3) = t.val / 4 ∧ win0_0.index t (1 : Fin 3) = 0 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = t.val / 4 ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val / 4 ∧ win0_3.index t (1 : Fin 3) = t.val / 2 % 2 ∧ win0_3.index t (2 : Fin 3) = t.val % 2 :=
  (by decide +kernel : ∀ t : Fin grid0.N, _)
/-- The rows the body reads from scratch: the row tile's for the left factor and the column of norms, the column
    tile's for the right factor and the row of norms. -/
theorem offs : ∀ t : Fin cfg0.N, k0_off1 (grid0.coords t) 0 = t.val / 2 % 2 * 1024 ∧ k0_off1 (grid0.coords t) 1 = 0
    ∧ k0_off2 (grid0.coords t) 0 = t.val % 2 * 1024 ∧ k0_off2 (grid0.coords t) 1 = 0
    ∧ k0_off3 (grid0.coords t) 0 = t.val / 2 % 2 * 1024 ∧ k0_off3 (grid0.coords t) 1 = 0
    ∧ k0_off4 (grid0.coords t) 0 = 0 ∧ k0_off4 (grid0.coords t) 1 = t.val % 2 * 1024 :=
  (by decide +kernel : ∀ t : Fin grid0.N, _)

theorem hN (t : Fin cfg0.N) : t.val < 16 := lt_of_lt_of_eq t.isLt (show cfg0.N = 16 from N_0)

/-- The batch of a point; the row of the batch that local row `p` of the point's row tile is, and likewise for its
    column tile. -/
def bat (t : Fin cfg0.N) : Fin 4 := ⟨t.val / 4, by have := hN t; omega⟩
def rowOf (t : Fin cfg0.N) (p : Fin 1024) : Fin 2048 := ⟨t.val / 2 % 2 * 1024 + p.val, by have := p.isLt; omega⟩
def colOf (t : Fin cfg0.N) (q : Fin 1024) : Fin 2048 := ⟨t.val % 2 * 1024 + q.val, by have := q.isLt; omega⟩

theorem bat_base (t : Fin cfg0.N) : bat (base t) = bat t := by
  apply Fin.ext; show (t.val - t.val % 4) / 4 = t.val / 4; omega

/-! ## The argument arrays, and the input blocks read through them -/

/-- The two argument arrays as the region finds them. -/
abbrev AA (c : Dev nD) : SEmb.Idx → EReal := V m c main_arg0
abbrev WW (c : Dev nD) : SWgt.Idx → EReal := V m c main_arg1

/-- The embeddings' block at point `u` is batch `u / 4`, all rows and features. -/
theorem X0_apply (c : Dev nD) (u : Fin cfg0.N) (l : Fin 2048) (e : Fin 512) :
    X0 m c u (ix3 (0 : Fin 1) l e) = AA m c (ix3 (bat u) l e) := by
  show V m c main_arg0 (((cfg0.win 0).blk u).view.emb (ix3 (0 : Fin 1) l e)) = V m c main_arg0 (ix3 (bat u) l e)
  refine congrArg _ (funext fun a => Fin.ext ?_)
  obtain ⟨e0, e1, e2⟩ := idx0 u
  match a with
  | ⟨0, _⟩ => show win0_0.index u (0 : Fin 3) * 1 + 1 * 0 = u.val / 4; omega
  | ⟨1, _⟩ => show win0_0.index u (1 : Fin 3) * 2048 + 1 * l.val = l.val; omega
  | ⟨2, _⟩ => show win0_0.index u (2 : Fin 3) * 512 + 1 * e.val = e.val; omega

/-- The weight's block is the whole weight. -/
theorem X1_apply (c : Dev nD) (u : Fin cfg0.N) (d : Fin 128) (e : Fin 512) :
    X1 m c u (ix2 d e) = WW m c (ix2 d e) := by
  show V m c main_arg1 (((cfg0.win 1).blk u).view.emb (ix2 d e)) = V m c main_arg1 (ix2 d e)
  refine congrArg _ (funext fun a => Fin.ext ?_)
  obtain ⟨e0, e1⟩ := idx1 u
  match a with
  | ⟨0, _⟩ => show win0_1.index u (0 : Fin 2) * 128 + 1 * d.val = d.val; omega
  | ⟨1, _⟩ => show win0_1.index u (1 : Fin 2) * 512 + 1 * e.val = e.val; omega

/-! ## What the batch's first point computes, read at an index -/

theorem pay1_proj (c : Dev nD) (u : Fin cfg0.N) (l : Fin 2048) (d : Fin 128) :
    k0_pay1 (F := Ideal) (X0 m c u) (X1 m c u) (ix2 l d) = proj (AA m c) (WW m c) (bat u) l d := by
  rw [pay1_apply]; unfold proj
  exact Finset.sum_congr rfl fun e _ => by rw [X0_apply, X1_apply]

theorem P3_apply (c : Dev nD) (u : Fin cfg0.N) (l : Fin 2048) (d : Fin 128) :
    P3 m c u (ix3 (0 : Fin 1) l d) = proj (AA m c) (WW m c) (bat u) l d := by
  unfold P3; rw [pay3_apply, ← pay1_apply]; exact pay1_proj m c u l d

theorem P2_apply (c : Dev nD) (u : Fin cfg0.N) (l : Fin 2048) (d : Fin 128) :
    P2 m c u (ix2 l d) = proj (AA m c) (WW m c) (bat u) l d := by
  unfold P2; rw [pay2_apply, ← pay1_apply]; exact pay1_proj m c u l d

theorem P5_apply (c : Dev nD) (u : Fin cfg0.N) (l : Fin 2048) :
    P5 m c u (ix2 l (0 : Fin 1)) = sqn (AA m c) (WW m c) (bat u) l := by
  unfold P5; rw [pay5_apply]; unfold sqn
  exact Finset.sum_congr rfl fun d _ => by rw [pay1_proj]

theorem P6_apply (c : Dev nD) (u : Fin cfg0.N) (l : Fin 2048) :
    P6 m c u (ix2 (0 : Fin 1) l) = sqn (AA m c) (WW m c) (bat u) l := by
  unfold P6; rw [pay6_apply]; unfold sqn
  exact Finset.sum_congr rfl fun d _ => by rw [pay1_proj]

/-! ## The distance tile, read at an index -/

/-- The tile stored at point `t` from scratch contents `S0`, `S1`, `S2`: entry `(p, q)` reads the scratch at the rows
    the point's two tiles select. -/
theorem tile_apply (t : Fin cfg0.N) (S0 : Vec Ideal S2048x128 .f32) (S1 : Vec Ideal S2048x1 .f32) (S2 : Vec Ideal S1x2048 .f32)
    (p q : Fin 1024) :
    tile (F := Ideal) (grid0.coords t) S0 S1 S2 (ix3 (0 : Fin 1) p q)
      = (S1 (ix2 (rowOf t p) (0 : Fin 1)) + S2 (ix2 (0 : Fin 1) (colOf t q)))
          - two * ∑ d : Fin 128, S0 (ix2 (rowOf t p) d) * S0 (ix2 (colOf t q) d) := by
  unfold tile; rw [pay7_apply]
  obtain ⟨o10, o11, o20, o21, o30, o31, o40, o41⟩ := offs t
  have h1 : ∀ d : Fin 128, View.ld S0 (Rect.unit (s := S2048x128) (k0_off1 (grid0.coords t)) S1024x128.size (k0_off1_inb (grid0.coords t))) (ix2 p d) = S0 (ix2 (rowOf t p) d) := fun d => by
    show S0 _ = S0 _
    refine congrArg S0 (funext fun a => Fin.ext ?_)
    match a with
    | ⟨0, _⟩ => show k0_off1 (grid0.coords t) 0 + 1 * p.val = t.val / 2 % 2 * 1024 + p.val; omega
    | ⟨1, _⟩ => show k0_off1 (grid0.coords t) 1 + 1 * d.val = d.val; omega
  have h2 : ∀ d : Fin 128, View.ld S0 (Rect.unit (s := S2048x128) (k0_off2 (grid0.coords t)) S1024x128.size (k0_off2_inb (grid0.coords t))) (ix2 q d) = S0 (ix2 (colOf t q) d) := fun d => by
    show S0 _ = S0 _
    refine congrArg S0 (funext fun a => Fin.ext ?_)
    match a with
    | ⟨0, _⟩ => show k0_off2 (grid0.coords t) 0 + 1 * q.val = t.val % 2 * 1024 + q.val; omega
    | ⟨1, _⟩ => show k0_off2 (grid0.coords t) 1 + 1 * d.val = d.val; omega
  have h3 : View.ld S1 (Rect.unit (s := S2048x1) (k0_off3 (grid0.coords t)) S1024x1.size (k0_off3_inb (grid0.coords t))) (ix2 p (0 : Fin 1)) = S1 (ix2 (rowOf t p) (0 : Fin 1)) := by
    show S1 _ = S1 _
    refine congrArg S1 (funext fun a => Fin.ext ?_)
    match a with
    | ⟨0, _⟩ => show k0_off3 (grid0.coords t) 0 + 1 * p.val = t.val / 2 % 2 * 1024 + p.val; omega
    | ⟨1, _⟩ => show k0_off3 (grid0.coords t) 1 + 1 * 0 = 0; omega
  have h4 : View.ld S2 (Rect.unit (s := S1x2048) (k0_off4 (grid0.coords t)) S1x1024.size (k0_off4_inb (grid0.coords t))) (ix2 (0 : Fin 1) q) = S2 (ix2 (0 : Fin 1) (colOf t q)) := by
    show S2 _ = S2 _
    refine congrArg S2 (funext fun a => Fin.ext ?_)
    match a with
    | ⟨0, _⟩ => show k0_off4 (grid0.coords t) 0 + 1 * 0 = 0; omega
    | ⟨1, _⟩ => show k0_off4 (grid0.coords t) 1 + 1 * q.val = t.val % 2 * 1024 + q.val; omega
  rw [h3, h4]
  congr 2
  exact Finset.sum_congr rfl fun d _ => by rw [h1 d, h2 d]

/-- The tile stored at point `t` is the point's tile of the specification's distances. -/
theorem T3_apply (c : Dev nD) (t : Fin cfg0.N) (p q : Fin 1024) :
    T3 m c t (ix3 (0 : Fin 1) p q) = distArr (AA m c) (WW m c) (ix3 (bat t) (rowOf t p) (colOf t q)) := by
  unfold T3; rw [tile_apply, P5_apply, P6_apply, bat_base]
  show _ = (sqn (AA m c) (WW m c) (bat t) (rowOf t p) + sqn (AA m c) (WW m c) (bat t) (colOf t q))
      - two * gram (AA m c) (WW m c) (bat t) (rowOf t p) (colOf t q)
  unfold gram
  congr 2
  exact Finset.sum_congr rfl fun d _ => by rw [P2_apply, P2_apply, bat_base]

/-! ## The stored blocks at any index, and the blocks of a whole-array function -/

theorem P3_at (c : Dev nD) (u : Fin cfg0.N) (j : S1x2048x128.Idx) :
    P3 m c u j = proj (AA m c) (WW m c) (bat u) (j 1) (j 2) := by
  have hj0 : @Eq (Fin 1) (j 0) (0 : Fin 1) := Fin.ext (by
    show (j 0).val = 0
    have h1 : (j 0).val < 1 := (j 0).isLt
    omega)
  have h : j = ix3 (0 : Fin 1) (j 1) (j 2) := (eq_ix3 j).trans (congrArg (fun a : Fin 1 => ix3 a (j 1) (j 2)) hj0)
  exact (congrArg (P3 m c u) h).trans (P3_apply m c u (j 1) (j 2))

theorem T3_at (c : Dev nD) (t : Fin cfg0.N) (j : S1x1024x1024.Idx) :
    T3 m c t j = distArr (AA m c) (WW m c) (ix3 (bat t) (rowOf t (j 1)) (colOf t (j 2))) := by
  have hj0 : @Eq (Fin 1) (j 0) (0 : Fin 1) := Fin.ext (by
    show (j 0).val = 0
    have h1 : (j 0).val < 1 := (j 0).isLt
    omega)
  have h : j = ix3 (0 : Fin 1) (j 1) (j 2) := (eq_ix3 j).trans (congrArg (fun a : Fin 1 => ix3 a (j 1) (j 2)) hj0)
  exact (congrArg (T3 m c t) h).trans (T3_apply m c t (j 1) (j 2))

/-- The first result's block at point `t` is batch `t / 4`, whole. -/
theorem blk2_read (t : Fin cfg0.N) (G : SProj.Idx → EReal) (j : S1x2048x128.Idx) :
    ((cfg0.win 2).blk t).view.read (Elt Ideal) G j = G (ix3 (bat t) (j 1) (j 2)) := by
  show G (((cfg0.win 2).blk t).view.emb j) = G (ix3 (bat t) (j 1) (j 2))
  refine congrArg G (funext fun a => Fin.ext ?_)
  obtain ⟨e0, e1, e2⟩ := idx2 t
  match a with
  | ⟨0, _⟩ => show win0_2.index t (0 : Fin 3) * 1 + 1 * (j 0).val = t.val / 4; have : (j 0).val < 1 := (j 0).isLt; omega
  | ⟨1, _⟩ => show win0_2.index t (1 : Fin 3) * 2048 + 1 * (j 1).val = (j 1).val; omega
  | ⟨2, _⟩ => show win0_2.index t (2 : Fin 3) * 128 + 1 * (j 2).val = (j 2).val; omega

/-- The second result's block at point `t` is the point's tile of batch `t / 4`. -/
theorem blk3_read (t : Fin cfg0.N) (G : SDist.Idx → EReal) (j : S1x1024x1024.Idx) :
    ((cfg0.win 3).blk t).view.read (Elt Ideal) G j = G (ix3 (bat t) (rowOf t (j 1)) (colOf t (j 2))) := by
  show G (((cfg0.win 3).blk t).view.emb j) = G (ix3 (bat t) (rowOf t (j 1)) (colOf t (j 2)))
  refine congrArg G (funext fun a => Fin.ext ?_)
  obtain ⟨e0, e1, e2⟩ := idx3 t
  match a with
  | ⟨0, _⟩ => show win0_3.index t (0 : Fin 3) * 1 + 1 * (j 0).val = t.val / 4; have : (j 0).val < 1 := (j 0).isLt; omega
  | ⟨1, _⟩ => show win0_3.index t (1 : Fin 3) * 1024 + 1 * (j 1).val = t.val / 2 % 2 * 1024 + (j 1).val; omega
  | ⟨2, _⟩ => show win0_3.index t (2 : Fin 3) * 1024 + 1 * (j 2).val = t.val % 2 * 1024 + (j 2).val; omega

/-! ## What each point writes back -/

/-- What a point writes back to the first result is its block of the specification's projection (the staging buffer
    holds the batch's projection at every point of the batch, its last included). -/
theorem flushed2_eq (c : Dev nD) (t : Fin cfg0.N) :
    (dats m 0 c).flushed 2 t = ((cfg0.win 2).blk t).view.read (Elt Ideal) (projArr (AA m c) (WW m c)) := by
  show (cfg0.win 2).cut (grid0.coords t) ((dats m 0 c).after 2 t) = _
  rw [after2]
  funext j
  refine (P3_at m c (base t) j).trans (Eq.trans ?_ (blk2_read t (projArr (AA m c) (WW m c)) j).symm)
  rw [bat_base]; rfl

/-- What a point writes back to the second result is its tile of the specification's distances. -/
theorem flushed3_eq (c : Dev nD) (t : Fin cfg0.N) :
    (dats m 0 c).flushed 3 t = ((cfg0.win 3).blk t).view.read (Elt Ideal) (distArr (AA m c) (WW m c)) := by
  show (cfg0.win 3).cut (grid0.coords t) ((dats m 0 c).after 3 t) = _
  rw [after3]
  funext j
  exact (T3_at m c t j).trans (blk3_read t (distArr (AA m c) (WW m c)) j).symm

/-! ## The written blocks cover both results -/

theorem mem_blk2 (t : Fin cfg0.N) (i : S4x2048x128.Idx) :
    i ∈ ((cfg0.win 2).blk t).view.set ↔ ∀ a : Fin 3, win0_2.index t a * S1x2048x128.size a ≤ (i a).val ∧ (i a).val < win0_2.index t a * S1x2048x128.size a + S1x2048x128.size a := by
  show i ∈ ((View.whole main_v0_0).slice (win0_2.rect t)).set ↔ _
  rw [View.set_slice_whole, Rect.mem_set_unit]
  exact Iff.rfl

theorem mem_blk3 (t : Fin cfg0.N) (i : S4x2048x2048.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v0_1).slice (win0_3.rect t)).set ↔ _
  rw [View.set_slice_whole, Rect.mem_set_unit]
  exact Iff.rfl

/-- Row `(b, l, ·)` of the first result is in the block written back at batch `b`'s last point. -/
theorem cover2 (i : S4x2048x128.Idx) :
    ∃ t : Fin cfg0.N, (cfg0.win 2).flush t = true ∧ i ∈ ((cfg0.win 2).blk t).view.set := by
  have h0 : (i 0).val < 4 := (i 0).isLt
  have h1 : (i 1).val < 2048 := (i 1).isLt
  have h2 : (i 2).val < 128 := (i 2).isLt
  let t : Fin cfg0.N := ⟨4 * (i 0).val + 3, by rw [show cfg0.N = 16 from N_0]; omega⟩
  have tv : t.val = 4 * (i 0).val + 3 := rfl
  refine ⟨t, (flush0_2 t).mpr (by rw [tv]; omega), ?_⟩
  rw [mem_blk2]
  obtain ⟨e0, e1, e2⟩ := idx2 t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 128 ≤ (i 2).val ∧ (i 2).val < win0_2.index t (2 : Fin 3) * 128 + 128; omega

/-- Entry `(b, i, j)` of the second result is in the tile written back at the point of batch `b` whose row and column
    tiles hold `i` and `j`. -/
theorem cover3 (i : S4x2048x2048.Idx) :
    ∃ t : Fin cfg0.N, (cfg0.win 3).flush t = true ∧ i ∈ ((cfg0.win 3).blk t).view.set := by
  have h0 : (i 0).val < 4 := (i 0).isLt
  have h1 : (i 1).val < 2048 := (i 1).isLt
  have h2 : (i 2).val < 2048 := (i 2).isLt
  let t : Fin cfg0.N := ⟨4 * (i 0).val + 2 * ((i 1).val / 1024) + (i 2).val / 1024, by rw [show cfg0.N = 16 from N_0]; omega⟩
  have tv : t.val = 4 * (i 0).val + 2 * ((i 1).val / 1024) + (i 2).val / 1024 := rfl
  refine ⟨t, flush0_3 t, ?_⟩
  rw [mem_blk3]
  obtain ⟨e0, e1, e2⟩ := idx3 t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega

/-! ## The result arrays after the run -/

theorem final2 (c : Dev nD) : (dats m 0 c).arrAt 2 cfg0.N = projArr (AA m c) (WW m c) :=
  (dats m 0 c).arrAt_eq_of_cover 2 (projArr (AA m c) (WW m c)) (fun t _ => flushed2_eq m c t) cover2

theorem final3 (c : Dev nD) : (dats m 0 c).arrAt 3 cfg0.N = distArr (AA m c) (WW m c) :=
  (dats m 0 c).arrAt_eq_of_cover 3 (distArr (AA m c) (WW m c)) (fun t _ => flushed3_eq m c t) cover3

/-- The idealized kernel's run: it terminates without a fault, the first result holds the specification's projection
    of the argument arrays, the second its all-pairs squared distances, and the arguments are unchanged. -/
theorem run : θ_run defs (onTc (τ := τ) (main (F := Ideal))) ⟨m, fun _ => 0, ρ⟩ fun r => ∀ c : Dev nD,
      r.2.mem ((c : Thread nD τ).loc main_v0_0) = projArr (m ((c : Thread nD τ).loc main_arg0)) (m ((c : Thread nD τ).loc main_arg1))
      ∧ r.2.mem ((c : Thread nD τ).loc main_v0_1) = distArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final2 m c), ((h c).1 3).trans (final3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Blocks

end
-- ==== Proof.lean ====
/-
  A fused kernel against its reference program: per batch of 2048 sentence embeddings, the linear projection
  `proj = emb · Wᵀ` ([2048, 512] × [128, 512] → [2048, 128]) and the all-pairs squared distances of the projected
  rows, `dist[i, j] = (‖proj_i‖² + ‖proj_j‖²) − 2 · ⟨proj_i, proj_j⟩`.

  The kernel runs on a grid (batch, row tile, column tile) = (4, 2, 2). At a batch's first point it computes the
  projection once (a matrix product into a zero accumulator), keeps it and the rows' squared norms in scratch, and
  stores the projection as the first result's block; at every point it stores one 1024 × 1024 tile of distances from
  the scratch. The reference computes the same three quantities by two contractions and a sum over the feature axis,
  and combines them in the same arrangement `(a + b) − 2 · g`.

  Over the extended reals both programs are, index by index, the functions `Cert.Spec.projArr` and
  `Cert.Spec.distArr` of the two argument arrays: a matrix product into a zero accumulator and a contraction are the
  same finite sum, a lane sum from the zero word and a reduction from the constant zero are the same finite sum
  (`0 + x = x`), and the constant two is one word on both sides. No law that could fail at an infinity (no
  distributivity, no cancellation) is used, so the inputs' finiteness is never opened.

  The frames: the kernel's body is run once, for any instance of the floats (Proof/IdealBody.lean, and its copy at the
  word-level program's names, Proof/BitsBody.lean); the reference's frame is its run with the results dropped.
  The ideal pass rewrote nothing, so the sanctioned-idealization claim is trivial.
-/
import proofs.«140037_j16681652977790_2_alg».proof.Defs
import proofs.«140037_j16681652977790_2_alg».proof.Proof.Gen.Kernel
import proofs.«140037_j16681652977790_2_alg».proof.Proof.Gen.Kernel.Skeleton
import proofs.«140037_j16681652977790_2_alg».proof.Proof.Gen.Kernel.Launch
import proofs.«140037_j16681652977790_2_alg».proof.Proof.Gen.Kernel.Points
import proofs.«140037_j16681652977790_2_alg».proof.Proof.Gen.Kernel.Frame
import proofs.«140037_j16681652977790_2_alg».proof.Proof.Gen.KernelIdeal
import proofs.«140037_j16681652977790_2_alg».proof.Proof.Gen.KernelIdeal.Skeleton
import proofs.«140037_j16681652977790_2_alg».proof.Proof.Gen.KernelIdeal.Launch
import proofs.«140037_j16681652977790_2_alg».proof.Proof.Gen.KernelIdeal.Points
import proofs.«140037_j16681652977790_2_alg».proof.Proof.Gen.KernelIdeal.Frame
import proofs.«140037_j16681652977790_2_alg».proof.Proof.Gen.ReferenceIdeal
import proofs.«140037_j16681652977790_2_alg».proof.Proof.Gen.Pre_finite_inputs
import proofs.«140037_j16681652977790_2_alg».proof.Proof.Gen.ReferenceIdeal.Run
import proofs.«140037_j16681652977790_2_alg».proof.Proof.Gen.ReferenceIdeal.Read
import proofs.«140037_j16681652977790_2_alg».proof.Proof.Spec
import proofs.«140037_j16681652977790_2_alg».proof.Proof.RefSpec
import proofs.«140037_j16681652977790_2_alg».proof.Proof.Payload
import proofs.«140037_j16681652977790_2_alg».proof.Proof.IdealBody
import proofs.«140037_j16681652977790_2_alg».proof.Proof.BitsBody
import proofs.«140037_j16681652977790_2_alg».proof.Proof.IdealValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Body.frame m ρ

/-- So does the idealized kernel. -/
theorem frame_ki : Cert.frame_KernelIdeal := fun m ρ _ => Cert.KernelIdeal.Body.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the two arguments, the idealized kernel and the idealized reference both end with the
    first result at the specification's projection and the second at its all-pairs squared distances. -/
theorem algebraic : Cert.algebraic_KernelIdeal_ReferenceIdeal := by
  intro m ρ m' ρ' _ hagree
  refine ⟨fun c => Cert.Spec.projArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.Spec.distArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Blocks.run m ρ, ?_⟩
  refine (θ_run Cert.ReferenceIdeal.defs _ _).mono (fun _ h c => ?_) (Cert.ReferenceIdeal.Value.run (F := Ideal) m' ρ')
  obtain ⟨h0, h11, ha0, ha1⟩ := h c
  refine ⟨?_, ?_, ha0, ha1⟩
  · exact h0.trans ((Cert.ReferenceIdeal.Read.val_main_v0_eq (F := Ideal) _ _).trans
      ((Cert.RefSpec.ref_proj _ _).trans (by rw [(hagree c).1, (hagree c).2])))
  · exact h11.trans ((Cert.ReferenceIdeal.Read.val_main_v11_eq (F := Ideal) _ _).trans
      ((Cert.RefSpec.ref_dist _ _).trans (by rw [(hagree c).1, (hagree c).2])))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
